-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S5000x128 : Shape := ⟨2, ![5000, 128]⟩
abbrev S600000x128 : Shape := ⟨2, ![600000, 128]⟩
abbrev S50000x1 : Shape := ⟨2, ![50000, 1]⟩
abbrev S1x128 : Shape := ⟨2, ![1, 128]⟩
abbrev S5000x1 : Shape := ⟨2, ![5000, 1]⟩
abbrev S50000x64 : Shape := ⟨2, ![50000, 64]⟩
abbrev S5000x64 : Shape := ⟨2, ![5000, 64]⟩
abbrev S600000x64 : Shape := ⟨2, ![600000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 201
  | .vmem => 56
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S50000, .f32⟩
  | 62 => ⟨S50000x1, .f32⟩
  | 63 => ⟨S1x128, .f32⟩
  | 64 => ⟨S50000x128, .f32⟩
  | 65 => ⟨S50000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000, .f32⟩
  | 84 => ⟨S600000, .f32⟩
  | 85 => ⟨S_, .i32⟩
  | 86 => ⟨S600000, .i32⟩
  | 87 => ⟨S600000, .i1⟩
  | 88 => ⟨S_, .i32⟩
  | 89 => ⟨S600000, .i32⟩
  | 90 => ⟨S600000, .i32⟩
  | 91 => ⟨S600000, .i32⟩
  | 92 => ⟨S600000x1, .i32⟩
  | 93 => ⟨S600000x128, .f32⟩
  | 94 => ⟨S600000x1, .f32⟩
  | 95 => ⟨S600000x128, .f32⟩
  | 96 => ⟨S600000x128, .f32⟩
  | 97 => ⟨S_, .f32⟩
  | 98 => ⟨S50000x128, .f32⟩
  | 99 => ⟨S600000x1, .i32⟩
  | 100 => ⟨S50000x128, .f32⟩
  | 101 => ⟨S50000, .f32⟩
  | 102 => ⟨S50000x1, .f32⟩
  | 103 => ⟨S1x128, .f32⟩
  | 104 => ⟨S50000x128, .f32⟩
  | 105 => ⟨S50000x128, .f32⟩
  | 106 => ⟨S_, .i32⟩
  | 107 => ⟨S600000, .i32⟩
  | 108 => ⟨S600000, .i1⟩
  | 109 => ⟨S_, .i32⟩
  | 110 => ⟨S600000, .i32⟩
  | 111 => ⟨S600000, .i32⟩
  | 112 => ⟨S600000, .i32⟩
  | 113 => ⟨S600000x1, .i32⟩
  | 114 => ⟨S600000, .f32⟩
  | 115 => ⟨S_, .i32⟩
  | 116 => ⟨S600000, .i32⟩
  | 117 => ⟨S600000, .i1⟩
  | 118 => ⟨S_, .i32⟩
  | 119 => ⟨S600000, .i32⟩
  | 120 => ⟨S600000, .i32⟩
  | 121 => ⟨S600000, .i32⟩
  | 122 => ⟨S600000x1, .i32⟩
  | 123 => ⟨S600000, .f32⟩
  | 124 => ⟨S600000, .f32⟩
  | 125 => ⟨S_, .i32⟩
  | 126 => ⟨S600000, .i32⟩
  | 127 => ⟨S600000, .i1⟩
  | _ => ⟨S50000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S600000x1, .f32⟩
  | 7 => ⟨S600000x128, .f32⟩
  | 8 => ⟨S600000x128, .f32⟩
  | 9 => ⟨S_, .f32⟩
  | 10 => ⟨S50000x128, .f32⟩
  | 11 => ⟨S600000x1, .i32⟩
  | 12 => ⟨S50000x128, .f32⟩
  | 13 => ⟨S50000, .f32⟩
  | 14 => ⟨S50000x1, .f32⟩
  | 15 => ⟨S1x128, .f32⟩
  | 16 => ⟨S50000x128, .f32⟩
  | 17 => ⟨S50000x64, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x64, .f32⟩
  | 46 => ⟨S600000x1, .f32⟩
  | 47 => ⟨S600000x64, .f32⟩
  | 48 => ⟨S600000x64, .f32⟩
  | 49 => ⟨S_, .f32⟩
  | 50 => ⟨S50000x64, .f32⟩
  | 51 => ⟨S600000x1, .i32⟩
  | 52 => ⟨S50000x64, .f32⟩
  | 53 => ⟨S50000, .f32⟩
  | 54 => ⟨S50000x1, .f32⟩
  | 55 => ⟨S1x64, .f32⟩
  | 56 => ⟨S50000x64, .f32⟩
  | 57 => ⟨S_, .f32⟩
  | 58 => ⟨S64x64, .f32⟩
  | 59 => ⟨S50000x1, .i32⟩
  | 60 => ⟨S64x64, .f32⟩
  | 61 => ⟨S_, .f32⟩
  | 62 => ⟨S50000, .f32⟩
  | 63 => ⟨S_, .f32⟩
  | 64 => ⟨S64, .f32⟩
  | 65 => ⟨S50000x1, .i32⟩
  | 66 => ⟨S64, .f32⟩
  | 67 => ⟨S_, .f32⟩
  | 68 => ⟨S64, .f32⟩
  | 69 => ⟨S64, .f32⟩
  | 70 => ⟨S64x1, .f32⟩
  | 71 => ⟨S64x64, .f32⟩
  | 72 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x1, .f32⟩
  | .local _ .vmem, ⟨52, _⟩ => ⟨S5000x1, .f32⟩
  | .local _ .vmem, ⟨53, _⟩ => ⟨S1x64, .f32⟩
  | .local _ .vmem, ⟨54, _⟩ => ⟨S5000x64, .f32⟩
  | .local _ .vmem, ⟨55, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_c_16 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_c_17 : Ref sig .tc := ⟨.hbm, 115, rfl⟩
abbrev main_v85 : Ref sig .tc := ⟨.hbm, 116, rfl⟩
abbrev main_v86 : Ref sig .tc := ⟨.hbm, 117, rfl⟩
abbrev main_c_18 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_19 : Ref sig .tc := ⟨.hbm, 125, rfl⟩
abbrev main_v93 : Ref sig .tc := ⟨.hbm, 126, rfl⟩
abbrev main_v94 : Ref sig .tc := ⟨.hbm, 127, rfl⟩
abbrev main_c_20 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_21 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_22 : Ref sig .tc := ⟨.hbm, 146, rfl⟩
abbrev main_v111 : Ref sig .tc := ⟨.hbm, 147, rfl⟩
abbrev main_v112 : Ref sig .tc := ⟨.hbm, 148, rfl⟩
abbrev main_c_23 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_24 : Ref sig .tc := ⟨.hbm, 155, rfl⟩
abbrev main_v118 : Ref sig .tc := ⟨.hbm, 156, rfl⟩
abbrev main_v119 : Ref sig .tc := ⟨.hbm, 157, rfl⟩
abbrev main_c_25 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_c_26 : Ref sig .tc := ⟨.hbm, 165, rfl⟩
abbrev main_v126 : Ref sig .tc := ⟨.hbm, 166, rfl⟩
abbrev main_v127 : Ref sig .tc := ⟨.hbm, 167, rfl⟩
abbrev main_c_27 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_cst_28 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_cst_29 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_cst_30 : Ref sig .tc := ⟨.hbm, 189, rfl⟩
abbrev main_v146 : Ref sig .tc := ⟨.hbm, 190, rfl⟩
abbrev main_cst_31 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_32 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg2_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg4_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52
abbrev cc7_sem3_0 : DmaSem sig := 53
abbrev cc7_sem4_0 : DmaSem sig := 54
abbrev cc7_sem4_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S600000x1_S600000_n_0_0_1_wf : ScatterDims.WF S50000 S600000x1 S600000 [] [0] [0] 1
  dot_S5000x128_S128x128_S5000x128_1_0_0_1_n_n_wf : DotDims.WF S5000x128 S128x128 S5000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S50000x1.size a
  hwx7_2 : ∀ i : grid7.Coords, EltTy.bits .f32 = 32 ∨ (Rect.block (s := S50000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v74) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v105) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v107) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v109) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v138) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v140) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v141) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v142) S5000x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S50000x64 : Shape := ⟨2, ![50000, 64]⟩
abbrev S600000x64 : Shape := ⟨2, ![600000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 226
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S1x600000, .i32⟩
  | 12 => ⟨S600000, .i32⟩
  | 13 => ⟨S1x600000, .i32⟩
  | 14 => ⟨S600000, .i32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x128, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000, .f32⟩
  | 44 => ⟨S600000, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S600000x1, .f32⟩
  | 55 => ⟨S600000x128, .f32⟩
  | 56 => ⟨S600000x128, .f32⟩
  | 57 => ⟨S_, .f32⟩
  | 58 => ⟨S50000x128, .f32⟩
  | 59 => ⟨S600000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S600000, .i32⟩
  | 75 => ⟨S600000, .i1⟩
  | 76 => ⟨S_, .i32⟩
  | 77 => ⟨S600000, .i32⟩
  | 78 => ⟨S600000, .i32⟩
  | 79 => ⟨S600000, .i32⟩
  | 80 => ⟨S600000x1, .i32⟩
  | 81 => ⟨S600000, .f32⟩
  | 82 => ⟨S_, .i32⟩
  | 83 => ⟨S600000, .i32⟩
  | 84 => ⟨S600000, .i1⟩
  | 85 => ⟨S_, .i32⟩
  | 86 => ⟨S600000, .i32⟩
  | 87 => ⟨S600000, .i32⟩
  | 88 => ⟨S600000, .i32⟩
  | 89 => ⟨S600000x1, .i32⟩
  | 90 => ⟨S600000, .f32⟩
  | 91 => ⟨S600000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S600000x1, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S50000, .f32⟩
  | 109 => ⟨S50000x1, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S_, .i32⟩
  | 121 => ⟨S600000, .i32⟩
  | 122 => ⟨S600000, .i1⟩
  | 123 => ⟨S_, .i32⟩
  | 124 => ⟨S600000, .i32⟩
  | 125 => ⟨S600000, .i32⟩
  | 126 => ⟨S600000, .i32⟩
  | 127 => ⟨S600000x1, .i32⟩
  | _ => ⟨S50000x128, .f32⟩

abbrev hbmTy0_1 (i : Nat) : BufTy := match i % 128 with
  | 0 => ⟨S600000, .f32⟩
  | 1 => ⟨S_, .i32⟩
  | 2 => ⟨S600000, .i32⟩
  | 3 => ⟨S600000, .i1⟩
  | 4 => ⟨S_, .i32⟩
  | 5 => ⟨S600000, .i32⟩
  | 6 => ⟨S600000, .i32⟩
  | 7 => ⟨S600000, .i32⟩
  | 8 => ⟨S600000x1, .i32⟩
  | 9 => ⟨S600000, .f32⟩
  | 10 => ⟨S600000, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000x128, .f32⟩
  | 20 => ⟨S600000x1, .f32⟩
  | 21 => ⟨S600000x128, .f32⟩
  | 22 => ⟨S600000x128, .f32⟩
  | 23 => ⟨S_, .f32⟩
  | 24 => ⟨S50000x128, .f32⟩
  | 25 => ⟨S600000x1, .i32⟩
  | 26 => ⟨S50000x128, .f32⟩
  | 27 => ⟨S50000, .f32⟩
  | 28 => ⟨S50000x1, .f32⟩
  | 29 => ⟨S50000x128, .f32⟩
  | 30 => ⟨S50000x128, .f32⟩
  | 31 => ⟨S50000x128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x64, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000, .f32⟩
  | 48 => ⟨S_, .i32⟩
  | 49 => ⟨S600000, .i32⟩
  | 50 => ⟨S600000, .i1⟩
  | 51 => ⟨S_, .i32⟩
  | 52 => ⟨S600000, .i32⟩
  | 53 => ⟨S600000, .i32⟩
  | 54 => ⟨S600000, .i32⟩
  | 55 => ⟨S600000x1, .i32⟩
  | 56 => ⟨S600000, .f32⟩
  | 57 => ⟨S600000, .f32⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x64, .f32⟩
  | 67 => ⟨S600000x1, .f32⟩
  | 68 => ⟨S600000x64, .f32⟩
  | 69 => ⟨S600000x64, .f32⟩
  | 70 => ⟨S_, .f32⟩
  | 71 => ⟨S50000x64, .f32⟩
  | 72 => ⟨S600000x1, .i32⟩
  | 73 => ⟨S50000x64, .f32⟩
  | 74 => ⟨S50000, .f32⟩
  | 75 => ⟨S50000x1, .f32⟩
  | 76 => ⟨S50000x64, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S64x64, .f32⟩
  | 84 => ⟨S50000x1, .i32⟩
  | 85 => ⟨S64x64, .f32⟩
  | 86 => ⟨S_, .f32⟩
  | 87 => ⟨S50000, .f32⟩
  | 88 => ⟨S_, .f32⟩
  | 89 => ⟨S64, .f32⟩
  | 90 => ⟨S50000x1, .i32⟩
  | 91 => ⟨S64, .f32⟩
  | 92 => ⟨S_, .f32⟩
  | 93 => ⟨S64, .f32⟩
  | 94 => ⟨S64, .f32⟩
  | 95 => ⟨S64x1, .f32⟩
  | 96 => ⟨S64x64, .f32⟩
  | 97 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_v87 : Ref sig .tc := ⟨.hbm, 119, rfl⟩
abbrev main_c_15 : Ref sig .tc := ⟨.hbm, 120, rfl⟩
abbrev main_v88 : Ref sig .tc := ⟨.hbm, 121, rfl⟩
abbrev main_v89 : Ref sig .tc := ⟨.hbm, 122, rfl⟩
abbrev main_c_16 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_c_17 : Ref sig .tc := ⟨.hbm, 129, rfl⟩
abbrev main_v95 : Ref sig .tc := ⟨.hbm, 130, rfl⟩
abbrev main_v96 : Ref sig .tc := ⟨.hbm, 131, rfl⟩
abbrev main_c_18 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_19 : Ref sig .tc := ⟨.hbm, 139, rfl⟩
abbrev main_v103 : Ref sig .tc := ⟨.hbm, 140, rfl⟩
abbrev main_v104 : Ref sig .tc := ⟨.hbm, 141, rfl⟩
abbrev main_c_20 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call2_cst : Ref sig .tc := ⟨.hbm, 163, rfl⟩
abbrev main_call2_v0 : Ref sig .tc := ⟨.hbm, 164, rfl⟩
abbrev main_v124 : Ref sig .tc := ⟨.hbm, 165, rfl⟩
abbrev main_v125 : Ref sig .tc := ⟨.hbm, 166, rfl⟩
abbrev main_c_22 : Ref sig .tc := ⟨.hbm, 167, rfl⟩
abbrev main_v126 : Ref sig .tc := ⟨.hbm, 168, rfl⟩
abbrev main_v127 : Ref sig .tc := ⟨.hbm, 169, rfl⟩
abbrev main_c_23 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_c_24 : Ref sig .tc := ⟨.hbm, 176, rfl⟩
abbrev main_v133 : Ref sig .tc := ⟨.hbm, 177, rfl⟩
abbrev main_v134 : Ref sig .tc := ⟨.hbm, 178, rfl⟩
abbrev main_c_25 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_26 : Ref sig .tc := ⟨.hbm, 186, rfl⟩
abbrev main_v141 : Ref sig .tc := ⟨.hbm, 187, rfl⟩
abbrev main_v142 : Ref sig .tc := ⟨.hbm, 188, rfl⟩
abbrev main_c_27 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_28 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_cst_29 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_30 : Ref sig .tc := ⟨.hbm, 214, rfl⟩
abbrev main_v165 : Ref sig .tc := ⟨.hbm, 215, rfl⟩
abbrev main_cst_31 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_32 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S600000x1_S600000x64_0_1 : S600000x1.BroadcastsInDim S600000x64 (![0, 1] : Fin 2 → Fin S600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The idealized kernel's run with its result named.

  The program is fourteen segments: six stretches of host operations and eight launches (four matrix products, each
  followed, after the message passing on the host, by a combine). The generated frame follows every unscoped buffer
  through the segments as a fold `W0 … W14` of the launch memory and keeps, of the last thread state, only the
  argument arrays. Here the same run is read once more with the result buffer kept as well: after every weakly fair
  execution the result array holds the fold's last value `W14` at the result's reference, and the arguments are as
  launched. What that value is, as a function of the arguments, is the business of the other modules.
-/
import proofs.«106310_j51728586113457_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array then holds the last
    boundary's contents at the result's reference, and every argument array is as launched. -/
theorem run_result : θ_run defs (onTc (τ := τ) (main (F := F))) ⟨m, fun _ => 0, ρ⟩ (fun r => ∀ c : Dev nD,
      r.2.mem ((c.tc : Thread nD τ).loc main_v154) = W14 m ρ c (Proc.devRef .tc main_v154)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v154 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.RunValue

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Product0.lean ====
/-
  Launch 0: a matrix product computed ten row blocks at a time.

  The launch has ten grid points. Point `t` reads rows `5000 t … 5000 t + 4999` of the left array (a block of
  5000 rows, all 128 columns) and the whole right array, multiplies the two blocks into a zero accumulator
  (the change of float format in front of the product is the identity on the extended reals) and writes the
  5000 × 128 result back as rows `5000 t …` of the output. A row of a product depends on that row of the left
  operand only, so block `t` of the whole product IS the product of block `t`; the ten blocks tile the output,
  hence after the launch the output array holds the whole product, entry `(a, b) = ∑ k, l[a,k] · r[k,b]`,
  whatever the two input arrays held when the launch was entered.
-/
import proofs.«106310_j51728586113457_1_alg».proof.Proof.Gen.KernelIdeal.Frame
import proofs.«106310_j51728586113457_1_alg».proof.Proof.LibPlainDot
import Idealize.ShloMosaic.Lib.Pipeline.Value
import Idealize.ShloMosaic.Lib.ValueIdx

set_option maxRecDepth 16384

noncomputable section

namespace Cert.KernelIdeal.Product0

open Cert.KernelIdeal Cert.KernelIdeal.Gen
open Idealize.ShloMosaic Idealize.ShloMosaic.TcCoe Idealize.SL.Sem Idealize.ShloMosaic.ValueIdx
open Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's block row is the point's number, every
    other block coordinate is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's one stored value is the product of its two loaded blocks. -/
theorem pay_eq (x0 : Vec Ideal S5000x128 .f32) (x1 : Vec Ideal S128x128 .f32) :
    k0_pay1 (F := Ideal) x0 x1 = rowsByCols (M := 5000) (K := 128) (N := 128) x0 x1 := by
  unfold k0_pay1
  exact matmul_zero_eq (M := 5000) (K := 128) (N := 128) dot_S5000x128_S128x128_S5000x128_1_0_0_1_n_n rfl none _ _

/-- The left window's block at point `t` is rows `5000 t …` of its array. -/
theorem left_block (c : Dev nD) (t : Fin cfg0.N) (x : S5000x128.Idx) (k : S50000x128.Idx)
    (hk0 : (k 0).val = 5000 * t.val + (x 0).val) (hk1 : (k 1).val = (x 1).val) :
    (iblk0 V c 0 t : S5000x128.Idx → EReal) x = (V c (Pipeline.arrRef spec0 0) : S50000x128.Idx → EReal) k := by
  obtain ⟨e0, e1, -⟩ := idx_facts t
  unfold iblk0
  rw [View.read_apply]
  refine congrArg (V c (Pipeline.arrRef spec0 0) : S50000x128.Idx → EReal) ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right window's block at every point is its whole array. -/
theorem right_block (c : Dev nD) (t : Fin cfg0.N) (x : S128x128.Idx) :
    (iblk0 V c 1 t : S128x128.Idx → EReal) x = (V c (Pipeline.arrRef spec0 1) : S128x128.Idx → EReal) x := by
  obtain ⟨-, -, e2, e3, -⟩ := idx_facts t
  unfold iblk0
  rw [View.read_apply]
  refine congrArg (V c (Pipeline.arrRef spec0 1) : S128x128.Idx → EReal) ?_
  funext a
  apply Fin.ext
  match a with
  | ⟨0, _⟩ => show win0_1.index t 0 * 128 + 1 * (x 0).val = (x 0).val; rw [e2]; omega
  | ⟨1, _⟩ => show win0_1.index t 1 * 128 + 1 * (x 1).val = (x 1).val; rw [e3]; omega

set_option maxHeartbeats 1600000 in
/-- What point `t` writes back is block `t` of the whole product of the two arrays as the launch finds them. -/
theorem flushed_eq (c : Dev nD) (t : Fin cfg0.N) :
    (dat0 V c).flushed 2 t = ((cfg0.win 2).blk t).view.read (Elt Ideal)
      (rowsByCols (M := 50000) (K := 128) (N := 128) (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨-, -, -, -, e4, e5⟩ := idx_facts t
  refine funext fun (j : S5000x128.Idx) => ?_
  show rowsByCols (M := 5000) (K := 128) (N := 128) (iblk0 V c 0 t) (iblk0 V c 1 t) j
      = rowsByCols (M := 50000) (K := 128) (N := 128) (V c (Pipeline.arrRef spec0 0)) (V c (Pipeline.arrRef spec0 1))
        (((cfg0.win 2).blk t).view.emb j)
  refine rowsByCols_congr (M := 50000) (M' := 5000) (K := 128) (N := 128) (N' := 128) _ _ _ _ j _ (fun k => ?_) (fun k => ?_)
  · refine left_block V c t _ _ ?_ rfl
    show (((cfg0.win 2).blk t).view.emb j 0).val = 5000 * t.val + (j 0).val
    show win0_2.index t 0 * 5000 + 1 * (j 0).val = 5000 * t.val + (j 0).val
    rw [e4]; omega
  · refine (right_block V c t _).trans (congrArg (V c (Pipeline.arrRef spec0 1) : S128x128.Idx → EReal) ?_)
    funext a
    apply Fin.ext
    match a with
    | ⟨0, _⟩ => rfl
    | ⟨1, _⟩ => show (j 1).val = win0_2.index t 1 * 128 + 1 * (j 1).val; rw [e5]; omega

/-- Every entry of the output lies in the block of the point numbered by its row divided by 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hlt : (i 0).val / 5000 < grid0.N := by rw [N_0]; omega
  obtain ⟨-, -, -, -, e4, e5⟩ := idx_facts ⟨(i 0).val / 5000, hlt⟩
  refine ⟨⟨(i 0).val / 5000, hlt⟩, flush0_2 _, ?_⟩
  show i ∈ ((View.whole main_v11).slice (win0_2.rect ⟨(i 0).val / 5000, hlt⟩)).set
  rw [View.set_slice_whole, Rect.mem_set_unit]
  intro a
  match a with
  | ⟨0, _⟩ =>
    show win0_2.index ⟨(i 0).val / 5000, hlt⟩ 0 * 5000 ≤ (i 0).val ∧ (i 0).val < win0_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, hlt⟩ 1 * 128 ≤ (i 1).val ∧ (i 1).val < win0_2.index ⟨(i 0).val / 5000, hlt⟩ 1 * 128 + 128
    rw [e5]; omega

/-- After the launch the output array holds the whole product of the two arrays as the launch found them. -/
theorem final (c : Dev nD) : (dat0 V c).arrAt 2 cfg0.N
    = rowsByCols (M := 50000) (K := 128) (N := 128) (V c (Pipeline.arrRef spec0 0)) (V c (Pipeline.arrRef spec0 1)) :=
  (dat0 V c).arrAt_eq_of_cover 2 _ (fun t _ => flushed_eq V c t) (cover)

end Cert.KernelIdeal.Product0

end
-- ==== Proof.Layer.lean ====
/-
  One graph-convolution layer's last step, entry by entry, on the extended reals.

  After the neighbours' messages have been summed into `agg`, a layer adds the node's own row weighted by the
  square of its inverse root degree and then the bias:
      out[p, q] = (agg[p, q] + h[p, q] · s[p, 0]) + b[0, q],
  with `s` a column (one weight per node) and `b` a row (one bias per feature); the first three layers then take
  the maximum with zero. The sums are kept in this order: on the extended reals addition is not cancellative at the
  infinities, and no regrouping is needed, since both programs add in this order.
-/
import Idealize.ShloMosaic.Lib.ValueIdx
import Idealize.ShloMosaic.PureOps.Ideal.Laws

noncomputable section

namespace Cert.Layer

open Idealize.ShloMosaic Idealize.ShloMosaic.ValueIdx

/-- `(agg[p,q] + h[p,q] · s[p,0]) + b[0,q]`. -/
def combine {N C : ℕ} (agg h : (⟨2, ![N, C]⟩ : Shape).Idx → EReal) (s : (⟨2, ![N, 1]⟩ : Shape).Idx → EReal)
    (b : (⟨2, ![1, C]⟩ : Shape).Idx → EReal) : (⟨2, ![N, C]⟩ : Shape).Idx → EReal :=
  fun j => FloatOps.addf (F := Ideal) (φ := .f32)
    (FloatOps.addf (F := Ideal) (φ := .f32) (agg j) (FloatOps.mulf (F := Ideal) (φ := .f32) (h j) (s (ix2 (j 0) (0 : Fin 1)))))
    (b (ix2 (0 : Fin 1) (j 1)))

/-- The same followed by the maximum with zero. -/
def combineRelu {N C : ℕ} (agg h : (⟨2, ![N, C]⟩ : Shape).Idx → EReal) (s : (⟨2, ![N, 1]⟩ : Shape).Idx → EReal)
    (b : (⟨2, ![1, C]⟩ : Shape).Idx → EReal) : (⟨2, ![N, C]⟩ : Shape).Idx → EReal :=
  fun j => FloatOps.maximumf (F := Ideal) (φ := .f32) (combine agg h s b j) (FloatOps.ofBits (F := Ideal) .f32 0x00000000#32)

/-- Two combines agree at two entries when the four values read there agree. -/
theorem combine_congr {N N' C C' : ℕ}
    (agg h : (⟨2, ![N, C]⟩ : Shape).Idx → EReal) (s : (⟨2, ![N, 1]⟩ : Shape).Idx → EReal) (b : (⟨2, ![1, C]⟩ : Shape).Idx → EReal)
    (agg' h' : (⟨2, ![N', C']⟩ : Shape).Idx → EReal) (s' : (⟨2, ![N', 1]⟩ : Shape).Idx → EReal) (b' : (⟨2, ![1, C']⟩ : Shape).Idx → EReal)
    (j : (⟨2, ![N, C]⟩ : Shape).Idx) (j' : (⟨2, ![N', C']⟩ : Shape).Idx)
    (ha : agg' j' = agg j) (hh : h' j' = h j) (hs : s' (ix2 (j' 0) (0 : Fin 1)) = s (ix2 (j 0) (0 : Fin 1)))
    (hb : b' (ix2 (0 : Fin 1) (j' 1)) = b (ix2 (0 : Fin 1) (j 1))) :
    combine agg' h' s' b' j' = combine agg h s b j := by
  unfold combine
  rw [ha, hh, hs, hb]

theorem combineRelu_congr {N N' C C' : ℕ}
    (agg h : (⟨2, ![N, C]⟩ : Shape).Idx → EReal) (s : (⟨2, ![N, 1]⟩ : Shape).Idx → EReal) (b : (⟨2, ![1, C]⟩ : Shape).Idx → EReal)
    (agg' h' : (⟨2, ![N', C']⟩ : Shape).Idx → EReal) (s' : (⟨2, ![N', 1]⟩ : Shape).Idx → EReal) (b' : (⟨2, ![1, C']⟩ : Shape).Idx → EReal)
    (j : (⟨2, ![N, C]⟩ : Shape).Idx) (j' : (⟨2, ![N', C']⟩ : Shape).Idx)
    (ha : agg' j' = agg j) (hh : h' j' = h j) (hs : s' (ix2 (j' 0) (0 : Fin 1)) = s (ix2 (j 0) (0 : Fin 1)))
    (hb : b' (ix2 (0 : Fin 1) (j' 1)) = b (ix2 (0 : Fin 1) (j 1))) :
    combineRelu agg' h' s' b' j' = combineRelu agg h s b j := by
  unfold combineRelu
  rw [combine_congr agg h s b agg' h' s' b' j j' ha hh hs hb]

/-- Equal arrays have equal combines. -/
theorem combine_args {N C : ℕ} {agg agg' h h' : (⟨2, ![N, C]⟩ : Shape).Idx → EReal} {s s' : (⟨2, ![N, 1]⟩ : Shape).Idx → EReal}
    {b b' : (⟨2, ![1, C]⟩ : Shape).Idx → EReal} (e1 : agg = agg') (e2 : h = h') (e3 : s = s') (e4 : b = b') :
    combine agg h s b = combine agg' h' s' b' := by
  subst e1 e2 e3 e4; rfl

theorem combineRelu_args {N C : ℕ} {agg agg' h h' : (⟨2, ![N, C]⟩ : Shape).Idx → EReal} {s s' : (⟨2, ![N, 1]⟩ : Shape).Idx → EReal}
    {b b' : (⟨2, ![1, C]⟩ : Shape).Idx → EReal} (e1 : agg = agg') (e2 : h = h') (e3 : s = s') (e4 : b = b') :
    combineRelu agg h s b = combineRelu agg' h' s' b' := by
  subst e1 e2 e3 e4; rfl

end Cert.Layer

end
-- ==== Proof.Combine1.lean ====
/-
  Launch 1: a layer's last step, ten row blocks at a time.

  The launch has ten grid points. Point `t` reads rows `5000 t … 5000 t + 4999` of the summed messages `agg`, of the
  projected features `h` and of the column `s` of self-loop weights, and the whole bias row `b`; it stores
  `(agg + h · s) + b` followed by the maximum with zero, the column spread along the rows' entries and the bias row spread over the rows,
  and writes the block back as the same rows of the output. Entry `(p, q)` of the output depends on entry `(p, q)` of
  `agg` and `h`, on `s[p, 0]` and on `b[0, q]` only, so each block of the output is a block of ONE whole-array
  function of the four arrays; the ten blocks tile the output.
-/
import proofs.«106310_j51728586113457_1_alg».proof.Proof.Gen.KernelIdeal.Frame
import proofs.«106310_j51728586113457_1_alg».proof.Proof.Layer
import Idealize.ShloMosaic.Lib.Pipeline.Value
import Idealize.ShloMosaic.Lib.ValueIdx

set_option maxRecDepth 16384

noncomputable section

namespace Cert.KernelIdeal.Combine1

open Cert.KernelIdeal Cert.KernelIdeal.Gen
open Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, the bias
    row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's stored value at an entry: the layer's combine of its four loaded blocks. -/
theorem pay_apply (x0 x1 : Vec Ideal S5000x128 .f32) (x2 : Vec Ideal S5000x1 .f32) (x3 : Vec Ideal S1x128 .f32) (j : S5000x128.Idx) :
    k1_pay1 (F := Ideal) x0 x1 x2 x3 j = combineRelu (N := 5000) (C := 128) x0 x1 x2 x3 j := by
  unfold k1_pay1
  simp only [shapeCast_self]
  have hs : broadcastTo S5000x128 (x2 : S5000x1.Idx → EReal) broadcasts_S5000x1_S5000x128 j = x2 (ix2 (j 0) (0 : Fin 1)) :=
    broadcastTo_apply (x2 : S5000x1.Idx → EReal) broadcasts_S5000x1_S5000x128 j (ix2 (n0 := 5000) (n1 := 1) (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 (x3 : S1x128.Idx → EReal) broadcasts_S1x128_S5000x128 j = x3 (ix2 (0 : Fin 1) (j 1)) :=
    broadcastTo_apply (x3 : S1x128.Idx → EReal) broadcasts_S1x128_S5000x128 j (ix2 (n0 := 1) (n1 := 128) (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (F := Ideal) (φ := .f32) (FloatOps.addf (F := Ideal) (φ := .f32) (FloatOps.addf (F := Ideal) (φ := .f32) (x0 j) (FloatOps.mulf (F := Ideal) (φ := .f32) (x1 j) (broadcastTo S5000x128 (x2 : S5000x1.Idx → EReal) broadcasts_S5000x1_S5000x128 j)))
      (broadcastTo S5000x128 (x3 : S1x128.Idx → EReal) broadcasts_S1x128_S5000x128 j)) _ = _
  rw [hs, hb]
  rfl

/-- A row-blocked window's block at point `t` is rows `5000 t …` of its array (windows 0 and 1, of width 128). -/
theorem rows_block0 (c : Dev nD) (t : Fin cfg1.N) (x : S5000x128.Idx) (k : S50000x128.Idx)
    (hk0 : (k 0).val = 5000 * t.val + (x 0).val) (hk1 : (k 1).val = (x 1).val) :
    (iblk1 V c 0 t : S5000x128.Idx → EReal) x = (V c (Pipeline.arrRef spec1 0) : S50000x128.Idx → EReal) k := by
  obtain ⟨e0, e1, -⟩ := idx_facts t
  unfold iblk1
  rw [View.read_apply]
  refine congrArg (V c (Pipeline.arrRef spec1 0) : S50000x128.Idx → EReal) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

theorem rows_block1 (c : Dev nD) (t : Fin cfg1.N) (x : S5000x128.Idx) (k : S50000x128.Idx)
    (hk0 : (k 0).val = 5000 * t.val + (x 0).val) (hk1 : (k 1).val = (x 1).val) :
    (iblk1 V c 1 t : S5000x128.Idx → EReal) x = (V c (Pipeline.arrRef spec1 1) : S50000x128.Idx → EReal) k := by
  obtain ⟨-, -, e0, e1, -⟩ := idx_facts t
  unfold iblk1
  rw [View.read_apply]
  refine congrArg (V c (Pipeline.arrRef spec1 1) : S50000x128.Idx → EReal) ?_
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The weight column's block at point `t` is rows `5000 t …` of the column. -/
theorem column_block (c : Dev nD) (t : Fin cfg1.N) (x : S5000x1.Idx) (k : S50000x1.Idx)
    (hk0 : (k 0).val = 5000 * t.val + (x 0).val) (hk1 : (k 1).val = (x 1).val) :
    (iblk1 V c 2 t : S5000x1.Idx → EReal) x = (V c (Pipeline.arrRef spec1 2) : S50000x1.Idx → EReal) k := by
  obtain ⟨-, -, -, -, e0, e1, -⟩ := idx_facts t
  unfold iblk1
  rw [View.read_apply]
  refine congrArg (V c (Pipeline.arrRef spec1 2) : S50000x1.Idx → EReal) ?_
  funext a
  apply Fin.ext
  match a with
  | ⟨0, _⟩ => show win1_2.index t 0 * 5000 + 1 * (x 0).val = (k 0).val; rw [e0, hk0]; omega
  | ⟨1, _⟩ => show win1_2.index t 1 * 1 + 1 * (x 1).val = (k 1).val; rw [e1, hk1]; omega

/-- The bias row's block at every point is the whole row. -/
theorem bias_block (c : Dev nD) (t : Fin cfg1.N) (x : S1x128.Idx) :
    (iblk1 V c 3 t : S1x128.Idx → EReal) x = (V c (Pipeline.arrRef spec1 3) : S1x128.Idx → EReal) x := by
  obtain ⟨-, -, -, -, -, -, e0, e1, -⟩ := idx_facts t
  unfold iblk1
  rw [View.read_apply]
  refine congrArg (V c (Pipeline.arrRef spec1 3) : S1x128.Idx → EReal) ?_
  funext a
  apply Fin.ext
  match a with
  | ⟨0, _⟩ => show win1_3.index t 0 * 1 + 1 * (x 0).val = (x 0).val; rw [e0]; omega
  | ⟨1, _⟩ => show win1_3.index t 1 * 128 + 1 * (x 1).val = (x 1).val; rw [e1]; omega

set_option maxHeartbeats 1600000 in
/-- What point `t` writes back is block `t` of the combine of the four arrays as the launch finds them. -/
theorem flushed_eq (c : Dev nD) (t : Fin cfg1.N) :
    (dat1 V c).flushed 4 t = ((cfg1.win 4).blk t).view.read (Elt Ideal)
      (combineRelu (N := 50000) (C := 128) (V c (Pipeline.arrRef spec1 0)) (V c (Pipeline.arrRef spec1 1))
        (V c (Pipeline.arrRef spec1 2)) (V c (Pipeline.arrRef spec1 3))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  refine funext fun (j : S5000x128.Idx) => ?_
  show k1_pay1 (F := Ideal) (iblk1 V c 0 t) (iblk1 V c 1 t) (iblk1 V c 2 t) (iblk1 V c 3 t) j
      = combineRelu (N := 50000) (C := 128) (V c (Pipeline.arrRef spec1 0)) (V c (Pipeline.arrRef spec1 1))
        (V c (Pipeline.arrRef spec1 2)) (V c (Pipeline.arrRef spec1 3)) (((cfg1.win 4).blk t).view.emb j)
  refine (pay_apply (iblk1 V c 0 t) (iblk1 V c 1 t) (iblk1 V c 2 t) (iblk1 V c 3 t) j).trans ?_
  have r0 : (((cfg1.win 4).blk t).view.emb j 0).val = 5000 * t.val + (j 0).val := by
    show win1_4.index t 0 * 5000 + 1 * (j 0).val = 5000 * t.val + (j 0).val
    rw [e8]; omega
  have r1 : (((cfg1.win 4).blk t).view.emb j 1).val = (j 1).val := by
    show win1_4.index t 1 * 128 + 1 * (j 1).val = (j 1).val
    rw [e9]; omega
  refine combineRelu_congr (N := 50000) (N' := 5000) (C := 128) (C' := 128) _ _ _ _ _ _ _ _ _ j ?_ ?_ ?_ ?_
  · exact rows_block0 V c t j _ r0 r1
  · exact rows_block1 V c t j _ r0 r1
  · exact column_block V c t _ _ r0 rfl
  · refine (bias_block V c t (ix2 (n0 := 1) (n1 := 128) (0 : Fin 1) (j 1))).trans (congrArg (V c (Pipeline.arrRef spec1 3) : S1x128.Idx → EReal) ?_)
    funext a
    apply Fin.ext
    match a with
    | ⟨0, _⟩ => rfl
    | ⟨1, _⟩ => exact r1.symm

/-- Every entry of the output lies in the block of the point numbered by its row divided by 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < grid1.N := by rw [N_1]; omega
  obtain ⟨-, -, -, -, -, -, -, -, e8, e9⟩ := idx_facts ⟨(i 0).val / 5000, hlt⟩
  refine ⟨⟨(i 0).val / 5000, hlt⟩, flush1_4 _, ?_⟩
  show i ∈ ((View.whole main_v43).slice (win1_4.rect ⟨(i 0).val / 5000, hlt⟩)).set
  rw [View.set_slice_whole, Rect.mem_set_unit]
  intro a
  match a with
  | ⟨0, _⟩ =>
    show win1_4.index ⟨(i 0).val / 5000, hlt⟩ 0 * 5000 ≤ (i 0).val ∧ (i 0).val < win1_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win1_4.index ⟨(i 0).val / 5000, hlt⟩ 1 * 128 ≤ (i 1).val ∧ (i 1).val < win1_4.index ⟨(i 0).val / 5000, hlt⟩ 1 * 128 + 128
    rw [e9]; omega

/-- After the launch the output array holds the combine of the four arrays as the launch found them. -/
theorem final (c : Dev nD) : (dat1 V c).arrAt 4 cfg1.N
    = combineRelu (N := 50000) (C := 128) (V c (Pipeline.arrRef spec1 0)) (V c (Pipeline.arrRef spec1 1))
        (V c (Pipeline.arrRef spec1 2)) (V c (Pipeline.arrRef spec1 3)) :=
  (dat1 V c).arrAt_eq_of_cover 4 _ (fun t _ => flushed_eq V c t) (cover)

end Cert.KernelIdeal.Combine1

end
-- ==== Proof.RefLayer.lean ====
/-
  The host's spelling of a layer's last step is the combine.

  On the host the column of self-loop weights is spread over the feature axis by a broadcast `[N,1] → [N,C]`, the bias
  vector is first given a leading unit axis (`[C] → [1,C]`, dims `[1]`) and then spread over the rows
  (`[1,C] → [N,C]`), and the zero of the rectifier is a scalar spread everywhere. Read at `(p, q)` these are
  `s[p,0]`, `b[q]` and `0`, so the host's `max((agg + h · spread s) + spread b, 0)` is the combine of `agg`, `h`,
  `s` and the bias seen as a `[1,C]` row (a reshape `[C] → [1,C]` reads `b[q]` at `(0, q)` too).
-/
import proofs.«106310_j51728586113457_1_alg».proof.Proof.Layer
import Idealize.ShloMosaic.Lib.Pipeline.Value
import Idealize.ShloMosaic.Lib.ValueLayout

noncomputable section

namespace Cert.Layer

open Idealize.ShloMosaic Idealize.ShloMosaic.ValueIdx

variable {C : ℕ}

/-- The column spread over the feature axis reads `s[p,0]` at `(p,q)`. -/
theorem spread_column (s : (⟨2, ![50000, 1]⟩ : Shape).Idx → EReal)
    (h1 : (⟨2, ![50000, 1]⟩ : Shape).BroadcastsInDim ⟨2, ![50000, C]⟩ ![0, 1]) (i : (⟨2, ![50000, C]⟩ : Shape).Idx) :
    broadcastInDim ⟨2, ![50000, C]⟩ ![0, 1] h1 s i = s (ix2 (i 0) (0 : Fin 1)) :=
  broadcastInDim_apply _ h1 s i (ix2 (n0 := 50000) (n1 := 1) (i 0) (0 : Fin 1)) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

/-- The bias vector given a unit axis and spread over the rows reads `b[q]` at `(p,q)`, which is what the bias
    reshaped to a `[1,C]` row holds at `(0,q)`. -/
theorem spread_bias (hC : C ≠ 1) (b : (⟨1, ![C]⟩ : Shape).Idx → EReal)
    (h3 : (⟨1, ![C]⟩ : Shape).BroadcastsInDim ⟨2, ![1, C]⟩ ![1])
    (h2 : (⟨2, ![1, C]⟩ : Shape).BroadcastsInDim ⟨2, ![50000, C]⟩ ![0, 1])
    (hsc : (⟨1, ![C]⟩ : Shape).ShapeCasts ⟨2, ![1, C]⟩) (i : (⟨2, ![50000, C]⟩ : Shape).Idx) :
    broadcastInDim ⟨2, ![50000, C]⟩ ![0, 1] h2 (broadcastInDim ⟨2, ![1, C]⟩ ![1] h3 b) i
      = shapeCast ⟨2, ![1, C]⟩ b hsc (ix2 (0 : Fin 1) (i 1)) := by
  rw [shapeCast_a_1a_apply b hsc (0 : Fin 1) (i 1)]
  rw [broadcastInDim_apply _ h2 (broadcastInDim ⟨2, ![1, C]⟩ ![1] h3 b) i (ix2 (n0 := 1) (n1 := C) (0 : Fin 1) (i 1)) (fun a => match a with
    | ⟨0, _⟩ => by show 0 = if (1 : Nat) = 1 then 0 else (i 0).val; rw [if_pos rfl]
    | ⟨1, _⟩ => by show (i 1).val = if C = 1 then 0 else (i 1).val; rw [if_neg hC])]
  exact broadcastInDim_apply _ h3 b _ (ix1 (i 1)) (fun a => match a with
    | ⟨0, _⟩ => by show (i 1).val = if C = 1 then 0 else (i 1).val; rw [if_neg hC])

/-- The host's spelling without the rectifier. -/
theorem spelt_combine (hC : C ≠ 1) (agg h : FVec Ideal ⟨2, ![50000, C]⟩ .f32) (s : FVec Ideal ⟨2, ![50000, 1]⟩ .f32)
    (b : FVec Ideal ⟨1, ![C]⟩ .f32)
    (h1 : (⟨2, ![50000, 1]⟩ : Shape).BroadcastsInDim ⟨2, ![50000, C]⟩ ![0, 1])
    (h3 : (⟨1, ![C]⟩ : Shape).BroadcastsInDim ⟨2, ![1, C]⟩ ![1])
    (h2 : (⟨2, ![1, C]⟩ : Shape).BroadcastsInDim ⟨2, ![50000, C]⟩ ![0, 1])
    (hsc : (⟨1, ![C]⟩ : Shape).ShapeCasts ⟨2, ![1, C]⟩) :
    addf (addf agg (mulf h (broadcastInDim ⟨2, ![50000, C]⟩ ![0, 1] h1 s)))
        (broadcastInDim ⟨2, ![50000, C]⟩ ![0, 1] h2 (broadcastInDim ⟨2, ![1, C]⟩ ![1] h3 b))
      = combine (N := 50000) (C := C) agg h s (shapeCast ⟨2, ![1, C]⟩ b hsc) := by
  funext i
  show FloatOps.addf (FloatOps.addf (agg i) (FloatOps.mulf (h i) (broadcastInDim ⟨2, ![50000, C]⟩ ![0, 1] h1 s i)))
      (broadcastInDim ⟨2, ![50000, C]⟩ ![0, 1] h2 (broadcastInDim ⟨2, ![1, C]⟩ ![1] h3 b) i) = _
  rw [spread_column s h1 i, spread_bias hC b h3 h2 hsc i]
  rfl

/-- The host's spelling with the rectifier. -/
theorem spelt_combineRelu (hC : C ≠ 1) (agg h : FVec Ideal ⟨2, ![50000, C]⟩ .f32) (s : FVec Ideal ⟨2, ![50000, 1]⟩ .f32)
    (b : FVec Ideal ⟨1, ![C]⟩ .f32)
    (h1 : (⟨2, ![50000, 1]⟩ : Shape).BroadcastsInDim ⟨2, ![50000, C]⟩ ![0, 1])
    (h3 : (⟨1, ![C]⟩ : Shape).BroadcastsInDim ⟨2, ![1, C]⟩ ![1])
    (h2 : (⟨2, ![1, C]⟩ : Shape).BroadcastsInDim ⟨2, ![50000, C]⟩ ![0, 1])
    (h4 : (⟨0, ![]⟩ : Shape).BroadcastsInDim ⟨2, ![50000, C]⟩ ![])
    (hsc : (⟨1, ![C]⟩ : Shape).ShapeCasts ⟨2, ![1, C]⟩) :
    maximumf (addf (addf agg (mulf h (broadcastInDim ⟨2, ![50000, C]⟩ ![0, 1] h1 s)))
        (broadcastInDim ⟨2, ![50000, C]⟩ ![0, 1] h2 (broadcastInDim ⟨2, ![1, C]⟩ ![1] h3 b)))
        (broadcastInDim ⟨2, ![50000, C]⟩ ![] h4 (constant (F := Ideal) ⟨0, ![]⟩ .f32 0x00000000#32))
      = combineRelu (N := 50000) (C := C) agg h s (shapeCast ⟨2, ![1, C]⟩ b hsc) := by
  rw [spelt_combine hC agg h s b h1 h3 h2 hsc]
  funext i
  rfl

end Cert.Layer

end
-- ==== Proof.RefStages.lean ====
/-
  The reference's four layers, each read as: a whole-array product, then the combine.

  The reference computes a layer's features by one `dot_general` and spells the last step out on the host. Here each
  layer's product stage is identified with the whole-array product (entry `(a, b) = ∑ k, l[a,k] · r[k,b]`), and each
  layer's output stage with the combine of its summed-messages stage, its product stage, the self-loop weight column
  and the bias seen as a one-row array.
-/
import proofs.«106310_j51728586113457_1_alg».proof.Proof.Gen.ReferenceIdeal.Read
import proofs.«106310_j51728586113457_1_alg».proof.Proof.RefLayer
import proofs.«106310_j51728586113457_1_alg».proof.Proof.LibPlainDot

noncomputable section

namespace Cert.ReferenceIdeal.Stages

open Cert.ReferenceIdeal Cert.ReferenceIdeal.Gen Cert.ReferenceIdeal.Read Idealize.ShloMosaic Idealize.ShloMosaic.TcCoe Idealize.SL.Sem
open Cert.Layer Cert.Lib.PlainDot

variable (x0 : (⟨S50000x128, .f32⟩ : BufTy).Contents (Elt Ideal)) (x1 : (⟨S2x600000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x64, .f32⟩ : BufTy).Contents (Elt Ideal)) (x10 : (⟨S64, .f32⟩ : BufTy).Contents (Elt Ideal))
  (hsc : (⟨1, ![128]⟩ : Shape).ShapeCasts ⟨2, ![1, 128]⟩) (hsc' : (⟨1, ![64]⟩ : Shape).ShapeCasts ⟨2, ![1, 64]⟩)

/-- Layer 1's features are the product of the node features by the first weight matrix. -/
theorem features1 : val_main_v11 (F := Ideal) x0 x3 = rowsByCols (M := 50000) (K := 128) (N := 128) x0 x3 := by
  unfold val_main_v11
  exact dotGeneral_eq (M := 50000) (K := 128) (N := 128) dot_S50000x128_S128x128_S50000x128_1_0_0_1_n_n rfl none _ _ _

theorem features2 : val_main_v49 (F := Ideal) x0 x1 x3 x4 x5 = rowsByCols (M := 50000) (K := 128) (N := 128) (val_main_v48 (F := Ideal) x0 x1 x3 x4) x5 := by
  unfold val_main_v49
  exact dotGeneral_eq (M := 50000) (K := 128) (N := 128) dot_S50000x128_S128x128_S50000x128_1_0_0_1_n_n rfl none _ _ _

theorem features3 : val_main_v87 (F := Ideal) x0 x1 x3 x4 x5 x6 x7 = rowsByCols (M := 50000) (K := 128) (N := 128) (val_main_v86 (F := Ideal) x0 x1 x3 x4 x5 x6) x7 := by
  unfold val_main_v87
  exact dotGeneral_eq (M := 50000) (K := 128) (N := 128) dot_S50000x128_S128x128_S50000x128_1_0_0_1_n_n rfl none _ _ _

theorem features4 : val_main_v125 (F := Ideal) x0 x1 x3 x4 x5 x6 x7 x8 x9 = rowsByCols (M := 50000) (K := 128) (N := 64) (val_main_v124 (F := Ideal) x0 x1 x3 x4 x5 x6 x7 x8) x9 := by
  unfold val_main_v125
  exact dotGeneral_eq (M := 50000) (K := 128) (N := 64) dot_S50000x128_S128x64_S50000x64_1_0_0_1_n_n rfl none _ _ _

/-- Layer 1's output is the rectified combine of its summed messages, its features, the weight column and the bias. -/
theorem out1 : val_main_v48 (F := Ideal) x0 x1 x3 x4 = combineRelu (N := 50000) (C := 128) (val_main_v39 (F := Ideal) x0 x1 x3) (val_main_v11 (F := Ideal) x0 x3) (val_main_v41 (F := Ideal) x1)
    (shapeCast ⟨2, ![1, 128]⟩ x4 hsc) := by
  unfold val_main_v48 val_main_v47 val_main_v44 val_main_v43 val_main_v42 val_main_v46 val_main_v45 val_main_call0_v0 val_main_call0_cst
  exact spelt_combineRelu (by decide) _ _ _ _ _ _ _ _ _

theorem out2 : val_main_v86 (F := Ideal) x0 x1 x3 x4 x5 x6 = combineRelu (N := 50000) (C := 128) (val_main_v77 (F := Ideal) x0 x1 x3 x4 x5) (val_main_v49 (F := Ideal) x0 x1 x3 x4 x5) (val_main_v79 (F := Ideal) x1)
    (shapeCast ⟨2, ![1, 128]⟩ x6 hsc) := by
  unfold val_main_v86 val_main_v85 val_main_v82 val_main_v81 val_main_v80 val_main_v84 val_main_v83 val_main_call1_v0 val_main_call1_cst
  exact spelt_combineRelu (by decide) _ _ _ _ _ _ _ _ _

theorem out3 : val_main_v124 (F := Ideal) x0 x1 x3 x4 x5 x6 x7 x8 = combineRelu (N := 50000) (C := 128) (val_main_v115 (F := Ideal) x0 x1 x3 x4 x5 x6 x7) (val_main_v87 (F := Ideal) x0 x1 x3 x4 x5 x6 x7) (val_main_v117 (F := Ideal) x1)
    (shapeCast ⟨2, ![1, 128]⟩ x8 hsc) := by
  unfold val_main_v124 val_main_v123 val_main_v120 val_main_v119 val_main_v118 val_main_v122 val_main_v121 val_main_call2_v0 val_main_call2_cst
  exact spelt_combineRelu (by decide) _ _ _ _ _ _ _ _ _

/-- The last layer is not rectified. -/
theorem out4 : val_main_v161 (F := Ideal) x0 x1 x3 x4 x5 x6 x7 x8 x9 x10 = combine (N := 50000) (C := 64) (val_main_v153 (F := Ideal) x0 x1 x3 x4 x5 x6 x7 x8 x9) (val_main_v125 (F := Ideal) x0 x1 x3 x4 x5 x6 x7 x8 x9) (val_main_v155 (F := Ideal) x1)
    (shapeCast ⟨2, ![1, 64]⟩ x10 hsc') := by
  unfold val_main_v161 val_main_v158 val_main_v157 val_main_v156 val_main_v160 val_main_v159
  exact spelt_combine (by decide) _ _ _ _ _ _ _ _

end Cert.ReferenceIdeal.Stages

end
-- ==== Proof.Chain1.lean ====
/-
  The kernel's buffers followed through layer 1.

  The program's state between segments is the generated fold `W0 … W14`. For every buffer a later segment reads, the
  value it holds at the boundary is stated as a stage of the reference applied to the launch contents of the argument
  arrays: a buffer no segment writes is carried unchanged, a host stretch applies the same operations as the
  reference to buffers already identified, a product launch leaves the whole product, a combine launch the combine.
  This module also reads the first host stretch: sources, targets and inverse root degrees.
-/
import proofs.«106310_j51728586113457_1_alg».proof.Proof.Gen.KernelIdeal.Frame
import proofs.«106310_j51728586113457_1_alg».proof.Proof.Gen.ReferenceIdeal.Read
import proofs.«106310_j51728586113457_1_alg».proof.Proof.Product0
import proofs.«106310_j51728586113457_1_alg».proof.Proof.Combine1
import proofs.«106310_j51728586113457_1_alg».proof.Proof.RefStages
import Idealize.ShloMosaic.Lib.StableHlo.Run
import Idealize.ShloMosaic.Lib.Pipeline.Value

set_option maxRecDepth 16384
-- a host stretch of forty operations is read back in one pass
set_option maxHeartbeats 4000000

noncomputable section

namespace Cert.KernelIdeal.Chain

open Cert.KernelIdeal Cert.KernelIdeal.Gen
open Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before. -/
macro "host_keeps" : tactic => `(tactic| (
  refine StableHlo.after_of_forall_not_mem _ _ (List.forall_iff_forall_mem.mp ?_)
  simp only [hostOps0, hostOps1, hostOps3, hostOps5, hostOps7, hostOps8, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## Boundary 0 -/

theorem at0_arg0 : W0 m ρ c (Proc.devRef .tc main_arg0) = (m ((c : Thread nD τ).loc main_arg0)) := rfl
theorem at0_arg3 : W0 m ρ c (Proc.devRef .tc main_arg3) = (m ((c : Thread nD τ).loc main_arg3)) := rfl
theorem at0_arg4 : W0 m ρ c (Proc.devRef .tc main_arg4) = (m ((c : Thread nD τ).loc main_arg4)) := rfl
theorem at0_arg5 : W0 m ρ c (Proc.devRef .tc main_arg5) = (m ((c : Thread nD τ).loc main_arg5)) := rfl
theorem at0_arg6 : W0 m ρ c (Proc.devRef .tc main_arg6) = (m ((c : Thread nD τ).loc main_arg6)) := rfl
theorem at0_arg7 : W0 m ρ c (Proc.devRef .tc main_arg7) = (m ((c : Thread nD τ).loc main_arg7)) := rfl
theorem at0_arg8 : W0 m ρ c (Proc.devRef .tc main_arg8) = (m ((c : Thread nD τ).loc main_arg8)) := rfl
theorem at0_arg9 : W0 m ρ c (Proc.devRef .tc main_arg9) = (m ((c : Thread nD τ).loc main_arg9)) := rfl
theorem at0_arg10 : W0 m ρ c (Proc.devRef .tc main_arg10) = (m ((c : Thread nD τ).loc main_arg10)) := rfl
theorem at0_arg2 : W0 m ρ c (Proc.devRef .tc main_arg2) = (m ((c : Thread nD τ).loc main_arg2)) := rfl

/-! ## Boundary 1 -/

theorem at1_arg0 : W1 m ρ c (Proc.devRef .tc main_arg0) = (m ((c : Thread nD τ).loc main_arg0)) :=
  (show W1 m ρ c (Proc.devRef .tc main_arg0) = W0 m ρ c (Proc.devRef .tc main_arg0) by host_keeps).trans (at0_arg0 m ρ c)
theorem at1_arg3 : W1 m ρ c (Proc.devRef .tc main_arg3) = (m ((c : Thread nD τ).loc main_arg3)) :=
  (show W1 m ρ c (Proc.devRef .tc main_arg3) = W0 m ρ c (Proc.devRef .tc main_arg3) by host_keeps).trans (at0_arg3 m ρ c)
theorem at1_arg4 : W1 m ρ c (Proc.devRef .tc main_arg4) = (m ((c : Thread nD τ).loc main_arg4)) :=
  (show W1 m ρ c (Proc.devRef .tc main_arg4) = W0 m ρ c (Proc.devRef .tc main_arg4) by host_keeps).trans (at0_arg4 m ρ c)
theorem at1_arg5 : W1 m ρ c (Proc.devRef .tc main_arg5) = (m ((c : Thread nD τ).loc main_arg5)) :=
  (show W1 m ρ c (Proc.devRef .tc main_arg5) = W0 m ρ c (Proc.devRef .tc main_arg5) by host_keeps).trans (at0_arg5 m ρ c)
theorem at1_arg6 : W1 m ρ c (Proc.devRef .tc main_arg6) = (m ((c : Thread nD τ).loc main_arg6)) :=
  (show W1 m ρ c (Proc.devRef .tc main_arg6) = W0 m ρ c (Proc.devRef .tc main_arg6) by host_keeps).trans (at0_arg6 m ρ c)
theorem at1_arg7 : W1 m ρ c (Proc.devRef .tc main_arg7) = (m ((c : Thread nD τ).loc main_arg7)) :=
  (show W1 m ρ c (Proc.devRef .tc main_arg7) = W0 m ρ c (Proc.devRef .tc main_arg7) by host_keeps).trans (at0_arg7 m ρ c)
theorem at1_arg8 : W1 m ρ c (Proc.devRef .tc main_arg8) = (m ((c : Thread nD τ).loc main_arg8)) :=
  (show W1 m ρ c (Proc.devRef .tc main_arg8) = W0 m ρ c (Proc.devRef .tc main_arg8) by host_keeps).trans (at0_arg8 m ρ c)
theorem at1_arg9 : W1 m ρ c (Proc.devRef .tc main_arg9) = (m ((c : Thread nD τ).loc main_arg9)) :=
  (show W1 m ρ c (Proc.devRef .tc main_arg9) = W0 m ρ c (Proc.devRef .tc main_arg9) by host_keeps).trans (at0_arg9 m ρ c)
theorem at1_arg10 : W1 m ρ c (Proc.devRef .tc main_arg10) = (m ((c : Thread nD τ).loc main_arg10)) :=
  (show W1 m ρ c (Proc.devRef .tc main_arg10) = W0 m ρ c (Proc.devRef .tc main_arg10) by host_keeps).trans (at0_arg10 m ρ c)
theorem at1_arg2 : W1 m ρ c (Proc.devRef .tc main_arg2) = (m ((c : Thread nD τ).loc main_arg2)) :=
  (show W1 m ρ c (Proc.devRef .tc main_arg2) = W0 m ρ c (Proc.devRef .tc main_arg2) by host_keeps).trans (at0_arg2 m ρ c)

theorem at1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results
  rfl
theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rfl
theorem at1_v10 : W1 m ρ c (Proc.devRef .tc main_v10) = Cert.ReferenceIdeal.Read.val_main_v10 (F := Ideal) (m ((c : Thread nD τ).loc main_arg1)) := by
  show StableHlo.after hostOps0 (W0 m ρ c) (Proc.devRef .tc main_v10) = _
  dsimp only [hostOps0]
  after_results
  rfl

/-! ## Boundary 2 -/

theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)
theorem at2_arg6 : W2 m ρ c (Proc.devRef .tc main_arg6) = (m ((c : Thread nD τ).loc main_arg6)) :=
  (W2_of_ne m ρ c main_arg6 (by decide)).trans (at1_arg6 m ρ c)
theorem at2_arg7 : W2 m ρ c (Proc.devRef .tc main_arg7) = (m ((c : Thread nD τ).loc main_arg7)) :=
  (W2_of_ne m ρ c main_arg7 (by decide)).trans (at1_arg7 m ρ c)
theorem at2_arg8 : W2 m ρ c (Proc.devRef .tc main_arg8) = (m ((c : Thread nD τ).loc main_arg8)) :=
  (W2_of_ne m ρ c main_arg8 (by decide)).trans (at1_arg8 m ρ c)
theorem at2_arg9 : W2 m ρ c (Proc.devRef .tc main_arg9) = (m ((c : Thread nD τ).loc main_arg9)) :=
  (W2_of_ne m ρ c main_arg9 (by decide)).trans (at1_arg9 m ρ c)
theorem at2_arg10 : W2 m ρ c (Proc.devRef .tc main_arg10) = (m ((c : Thread nD τ).loc main_arg10)) :=
  (W2_of_ne m ρ c main_arg10 (by decide)).trans (at1_arg10 m ρ c)
theorem at2_arg2 : W2 m ρ c (Proc.devRef .tc main_arg2) = (m ((c : Thread nD τ).loc main_arg2)) :=
  (W2_of_ne m ρ c main_arg2 (by decide)).trans (at1_arg2 m ρ c)
theorem at2_v1 : W2 m ρ c (Proc.devRef .tc main_v1) = Cert.ReferenceIdeal.Read.val_main_v1 (F := Ideal) (m ((c : Thread nD τ).loc main_arg1)) :=
  (W2_of_ne m ρ c main_v1 (by decide)).trans (at1_v1 m ρ c)
theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)
theorem at2_v10 : W2 m ρ c (Proc.devRef .tc main_v10) = Cert.ReferenceIdeal.Read.val_main_v10 (F := Ideal) (m ((c : Thread nD τ).loc main_arg1)) :=
  (W2_of_ne m ρ c main_v10 (by decide)).trans (at1_v10 m ρ c)

/-- Layer 1's features: the launch leaves the whole product, which is the reference's `dot_general` stage. -/
theorem at2_v11 : W2 m ρ c (Proc.devRef .tc main_v11) = Cert.ReferenceIdeal.Read.val_main_v11 (F := Ideal) (m ((c : Thread nD τ).loc main_arg0)) (m ((c : Thread nD τ).loc main_arg3)) :=
  (W2_arr m ρ c 2).trans ((Product0.final (V1 m ρ) c).trans
    ((congrArg₂ (Cert.Lib.PlainDot.rowsByCols (M := 50000) (K := 128) (N := 128)) (at1_arg0 m ρ c) (at1_arg3 m ρ c)).trans
      (Cert.ReferenceIdeal.Stages.features1 (m ((c : Thread nD τ).loc main_arg0)) (m ((c : Thread nD τ).loc main_arg3))).symm))

/-! ## Boundary 3 -/

theorem at3_arg5 : W3 m ρ c (Proc.devRef .tc main_arg5) = (m ((c : Thread nD τ).loc main_arg5)) :=
  (show W3 m ρ c (Proc.devRef .tc main_arg5) = W2 m ρ c (Proc.devRef .tc main_arg5) by host_keeps).trans (at2_arg5 m ρ c)
theorem at3_arg6 : W3 m ρ c (Proc.devRef .tc main_arg6) = (m ((c : Thread nD τ).loc main_arg6)) :=
  (show W3 m ρ c (Proc.devRef .tc main_arg6) = W2 m ρ c (Proc.devRef .tc main_arg6) by host_keeps).trans (at2_arg6 m ρ c)
theorem at3_arg7 : W3 m ρ c (Proc.devRef .tc main_arg7) = (m ((c : Thread nD τ).loc main_arg7)) :=
  (show W3 m ρ c (Proc.devRef .tc main_arg7) = W2 m ρ c (Proc.devRef .tc main_arg7) by host_keeps).trans (at2_arg7 m ρ c)
theorem at3_arg8 : W3 m ρ c (Proc.devRef .tc main_arg8) = (m ((c : Thread nD τ).loc main_arg8)) :=
  (show W3 m ρ c (Proc.devRef .tc main_arg8) = W2 m ρ c (Proc.devRef .tc main_arg8) by host_keeps).trans (at2_arg8 m ρ c)
theorem at3_arg9 : W3 m ρ c (Proc.devRef .tc main_arg9) = (m ((c : Thread nD τ).loc main_arg9)) :=
  (show W3 m ρ c (Proc.devRef .tc main_arg9) = W2 m ρ c (Proc.devRef .tc main_arg9) by host_keeps).trans (at2_arg9 m ρ c)
theorem at3_arg10 : W3 m ρ c (Proc.devRef .tc main_arg10) = (m ((c : Thread nD τ).loc main_arg10)) :=
  (show W3 m ρ c (Proc.devRef .tc main_arg10) = W2 m ρ c (Proc.devRef .tc main_arg10) by host_keeps).trans (at2_arg10 m ρ c)
theorem at3_arg2 : W3 m ρ c (Proc.devRef .tc main_arg2) = (m ((c : Thread nD τ).loc main_arg2)) :=
  (show W3 m ρ c (Proc.devRef .tc main_arg2) = W2 m ρ c (Proc.devRef .tc main_arg2) by host_keeps).trans (at2_arg2 m ρ c)
theorem at3_v1 : W3 m ρ c (Proc.devRef .tc main_v1) = Cert.ReferenceIdeal.Read.val_main_v1 (F := Ideal) (m ((c : Thread nD τ).loc main_arg1)) :=
  (show W3 m ρ c (Proc.devRef .tc main_v1) = W2 m ρ c (Proc.devRef .tc main_v1) by host_keeps).trans (at2_v1 m ρ c)
theorem at3_v3 : W3 m ρ c (Proc.devRef .tc main_v3) = Cert.ReferenceIdeal.Read.val_main_v3 (F := Ideal) (m ((c : Thread nD τ).loc main_arg1)) :=
  (show W3 m ρ c (Proc.devRef .tc main_v3) = W2 m ρ c (Proc.devRef .tc main_v3) by host_keeps).trans (at2_v3 m ρ c)
theorem at3_v10 : W3 m ρ c (Proc.devRef .tc main_v10) = Cert.ReferenceIdeal.Read.val_main_v10 (F := Ideal) (m ((c : Thread nD τ).loc main_arg1)) :=
  (show W3 m ρ c (Proc.devRef .tc main_v10) = W2 m ρ c (Proc.devRef .tc main_v10) by host_keeps).trans (at2_v10 m ρ c)
theorem at3_v11 : W3 m ρ c (Proc.devRef .tc main_v11) = Cert.ReferenceIdeal.Read.val_main_v11 (F := Ideal) (m ((c : Thread nD τ).loc main_arg0)) (m ((c : Thread nD τ).loc main_arg3)) :=
  (show W3 m ρ c (Proc.devRef .tc main_v11) = W2 m ρ c (Proc.devRef .tc main_v11) by host_keeps).trans (at2_v11 m ρ c)

/-- Layer 1's message passing on the host: the same gathers, products and scatter-add as the reference's, applied to
    the same features, sources, targets and inverse root degrees. -/
theorem at3_v39 : W3 m ρ c (Proc.devRef .tc main_v39) = Cert.ReferenceIdeal.Read.val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v39) = _
  dsimp only [hostOps1]
  after_results_simp
  rw [at2_v11 m ρ c, at2_v1 m ρ c, at2_v3 m ρ c, at2_v10 m ρ c]
  try rfl

/-- The self-loop weights: the squared inverse root degrees as a column. -/
theorem at3_v41 : W3 m ρ c (Proc.devRef .tc main_v41) = Cert.ReferenceIdeal.Read.val_main_v41 (F := Ideal) (m ((c : Thread nD τ).loc main_arg1)) := by
  show StableHlo.after hostOps1 (W2 m ρ c) (Proc.devRef .tc main_v41) = _
  dsimp only [hostOps1]
  after_results_simp
  rw [at2_v10 m ρ c]
  try rfl

/-- The bias reshaped to one row. -/
theorem at3_v42 : W3 m ρ c (Proc.devRef .tc main_v42) = shapeCast S1x128 (m ((c : Thread nD τ).loc main_arg4)) shapeCasts_S128_S1x128 := by
  show StableHlo.after hostOps1 (W2 m ρ c) (Proc.devRef .tc main_v42) = _
  dsimp only [hostOps1]
  after_results_simp
  rw [at2_arg4 m ρ c]
  try rfl

/-! ## Boundary 4 -/

theorem at4_arg5 : W4 m ρ c (Proc.devRef .tc main_arg5) = (m ((c : Thread nD τ).loc main_arg5)) :=
  (W4_of_ne m ρ c main_arg5 (by decide)).trans (at3_arg5 m ρ c)
theorem at4_arg6 : W4 m ρ c (Proc.devRef .tc main_arg6) = (m ((c : Thread nD τ).loc main_arg6)) :=
  (W4_of_ne m ρ c main_arg6 (by decide)).trans (at3_arg6 m ρ c)
theorem at4_arg7 : W4 m ρ c (Proc.devRef .tc main_arg7) = (m ((c : Thread nD τ).loc main_arg7)) :=
  (W4_of_ne m ρ c main_arg7 (by decide)).trans (at3_arg7 m ρ c)
theorem at4_arg8 : W4 m ρ c (Proc.devRef .tc main_arg8) = (m ((c : Thread nD τ).loc main_arg8)) :=
  (W4_of_ne m ρ c main_arg8 (by decide)).trans (at3_arg8 m ρ c)
theorem at4_arg9 : W4 m ρ c (Proc.devRef .tc main_arg9) = (m ((c : Thread nD τ).loc main_arg9)) :=
  (W4_of_ne m ρ c main_arg9 (by decide)).trans (at3_arg9 m ρ c)
theorem at4_arg10 : W4 m ρ c (Proc.devRef .tc main_arg10) = (m ((c : Thread nD τ).loc main_arg10)) :=
  (W4_of_ne m ρ c main_arg10 (by decide)).trans (at3_arg10 m ρ c)
theorem at4_arg2 : W4 m ρ c (Proc.devRef .tc main_arg2) = (m ((c : Thread nD τ).loc main_arg2)) :=
  (W4_of_ne m ρ c main_arg2 (by decide)).trans (at3_arg2 m ρ c)
theorem at4_v1 : W4 m ρ c (Proc.devRef .tc main_v1) = Cert.ReferenceIdeal.Read.val_main_v1 (F := Ideal) (m ((c : Thread nD τ).loc main_arg1)) :=
  (W4_of_ne m ρ c main_v1 (by decide)).trans (at3_v1 m ρ c)
theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)
theorem at4_v10 : W4 m ρ c (Proc.devRef .tc main_v10) = Cert.ReferenceIdeal.Read.val_main_v10 (F := Ideal) (m ((c : Thread nD τ).loc main_arg1)) :=
  (W4_of_ne m ρ c main_v10 (by decide)).trans (at3_v10 m ρ c)

/-- Layer 1's output: the launch leaves the combine of its four arrays, which is the reference's spelt-out stage. -/
theorem at4_v43 : W4 m ρ c (Proc.devRef .tc main_v43) = Cert.ReferenceIdeal.Read.val_main_v48 (F := Ideal) (m ((c : Thread nD τ).loc main_arg0)) (m ((c : Thread nD τ).loc main_arg1)) (m ((c : Thread nD τ).loc main_arg3)) (m ((c : Thread nD τ).loc main_arg4)) :=
  (W4_arr m ρ c 4).trans ((Combine1.final (V3 m ρ) c).trans
    ((Cert.Layer.combineRelu_args (N := 50000) (C := 128) (at3_v39 m ρ c) (at3_v11 m ρ c) (at3_v41 m ρ c) (at3_v42 m ρ c)).trans
      (Cert.ReferenceIdeal.Stages.out1 (m ((c : Thread nD τ).loc main_arg0)) (m ((c : Thread nD τ).loc main_arg1)) (m ((c : Thread nD τ).loc main_arg3)) (m ((c : Thread nD τ).loc main_arg4)) shapeCasts_S128_S1x128).symm))

end Cert.KernelIdeal.Chain

end
-- ==== Proof.Product2.lean ====
/-
  Launch 2: a matrix product computed ten row blocks at a time.

  The launch has ten grid points. Point `t` reads rows `5000 t … 5000 t + 4999` of the left array (a block of
  5000 rows, all 128 columns) and the whole right array, multiplies the two blocks into a zero accumulator
  (the change of float format in front of the product is the identity on the extended reals) and writes the
  5000 × 128 result back as rows `5000 t …` of the output. A row of a product depends on that row of the left
  operand only, so block `t` of the whole product IS the product of block `t`; the ten blocks tile the output,
  hence after the launch the output array holds the whole product, entry `(a, b) = ∑ k, l[a,k] · r[k,b]`,
  whatever the two input arrays held when the launch was entered.
-/
import proofs.«106310_j51728586113457_1_alg».proof.Proof.Gen.KernelIdeal.Frame
import proofs.«106310_j51728586113457_1_alg».proof.Proof.LibPlainDot
import Idealize.ShloMosaic.Lib.Pipeline.Value
import Idealize.ShloMosaic.Lib.ValueIdx

set_option maxRecDepth 16384

noncomputable section

namespace Cert.KernelIdeal.Product2

open Cert.KernelIdeal Cert.KernelIdeal.Gen
open Idealize.ShloMosaic Idealize.ShloMosaic.TcCoe Idealize.SL.Sem Idealize.ShloMosaic.ValueIdx
open Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's block row is the point's number, every
    other block coordinate is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's one stored value is the product of its two loaded blocks. -/
theorem pay_eq (x0 : Vec Ideal S5000x128 .f32) (x1 : Vec Ideal S128x128 .f32) :
    k2_pay1 (F := Ideal) x0 x1 = rowsByCols (M := 5000) (K := 128) (N := 128) x0 x1 := by
  unfold k2_pay1
  simp only [shapeCast_self]
  exact matmul_zero_eq (M := 5000) (K := 128) (N := 128) dot_S5000x128_S128x128_S5000x128_1_0_0_1_n_n rfl none _ _

/-- The left window's block at point `t` is rows `5000 t …` of its array. -/
theorem left_block (c : Dev nD) (t : Fin cfg2.N) (x : S5000x128.Idx) (k : S50000x128.Idx)
    (hk0 : (k 0).val = 5000 * t.val + (x 0).val) (hk1 : (k 1).val = (x 1).val) :
    (iblk2 V c 0 t : S5000x128.Idx → EReal) x = (V c (Pipeline.arrRef spec2 0) : S50000x128.Idx → EReal) k := by
  obtain ⟨e0, e1, -⟩ := idx_facts t
  unfold iblk2
  rw [View.read_apply]
  refine congrArg (V c (Pipeline.arrRef spec2 0) : S50000x128.Idx → EReal) ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The right window's block at every point is its whole array. -/
theorem right_block (c : Dev nD) (t : Fin cfg2.N) (x : S128x128.Idx) :
    (iblk2 V c 1 t : S128x128.Idx → EReal) x = (V c (Pipeline.arrRef spec2 1) : S128x128.Idx → EReal) x := by
  obtain ⟨-, -, e2, e3, -⟩ := idx_facts t
  unfold iblk2
  rw [View.read_apply]
  refine congrArg (V c (Pipeline.arrRef spec2 1) : S128x128.Idx → EReal) ?_
  funext a
  apply Fin.ext
  match a with
  | ⟨0, _⟩ => show win2_1.index t 0 * 128 + 1 * (x 0).val = (x 0).val; rw [e2]; omega
  | ⟨1, _⟩ => show win2_1.index t 1 * 128 + 1 * (x 1).val = (x 1).val; rw [e3]; omega

set_option maxHeartbeats 1600000 in
/-- What point `t` writes back is block `t` of the whole product of the two arrays as the launch finds them. -/
theorem flushed_eq (c : Dev nD) (t : Fin cfg2.N) :
    (dat2 V c).flushed 2 t = ((cfg2.win 2).blk t).view.read (Elt Ideal)
      (rowsByCols (M := 50000) (K := 128) (N := 128) (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [pay_eq]
  obtain ⟨-, -, -, -, e4, e5⟩ := idx_facts t
  refine funext fun (j : S5000x128.Idx) => ?_
  show rowsByCols (M := 5000) (K := 128) (N := 128) (iblk2 V c 0 t) (iblk2 V c 1 t) j
      = rowsByCols (M := 50000) (K := 128) (N := 128) (V c (Pipeline.arrRef spec2 0)) (V c (Pipeline.arrRef spec2 1))
        (((cfg2.win 2).blk t).view.emb j)
  refine rowsByCols_congr (M := 50000) (M' := 5000) (K := 128) (N := 128) (N' := 128) _ _ _ _ j _ (fun k => ?_) (fun k => ?_)
  · refine left_block V c t _ _ ?_ rfl
    show (((cfg2.win 2).blk t).view.emb j 0).val = 5000 * t.val + (j 0).val
    show win2_2.index t 0 * 5000 + 1 * (j 0).val = 5000 * t.val + (j 0).val
    rw [e4]; omega
  · refine (right_block V c t _).trans (congrArg (V c (Pipeline.arrRef spec2 1) : S128x128.Idx → EReal) ?_)
    funext a
    apply Fin.ext
    match a with
    | ⟨0, _⟩ => rfl
    | ⟨1, _⟩ => show (j 1).val = win2_2.index t 1 * 128 + 1 * (j 1).val; rw [e5]; omega

/-- Every entry of the output lies in the block of the point numbered by its row divided by 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hlt : (i 0).val / 5000 < grid2.N := by rw [N_2]; omega
  obtain ⟨-, -, -, -, e4, e5⟩ := idx_facts ⟨(i 0).val / 5000, hlt⟩
  refine ⟨⟨(i 0).val / 5000, hlt⟩, flush2_2 _, ?_⟩
  show i ∈ ((View.whole main_v44).slice (win2_2.rect ⟨(i 0).val / 5000, hlt⟩)).set
  rw [View.set_slice_whole, Rect.mem_set_unit]
  intro a
  match a with
  | ⟨0, _⟩ =>
    show win2_2.index ⟨(i 0).val / 5000, hlt⟩ 0 * 5000 ≤ (i 0).val ∧ (i 0).val < win2_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, hlt⟩ 1 * 128 ≤ (i 1).val ∧ (i 1).val < win2_2.index ⟨(i 0).val / 5000, hlt⟩ 1 * 128 + 128
    rw [e5]; omega

/-- After the launch the output array holds the whole product of the two arrays as the launch found them. -/
theorem final (c : Dev nD) : (dat2 V c).arrAt 2 cfg2.N
    = rowsByCols (M := 50000) (K := 128) (N := 128) (V c (Pipeline.arrRef spec2 0)) (V c (Pipeline.arrRef spec2 1)) :=
  (dat2 V c).arrAt_eq_of_cover 2 _ (fun t _ => flushed_eq V c t) (cover)

end Cert.KernelIdeal.Product2

end
-- ==== Proof.Combine3.lean ====
/-
  Launch 3: a layer's last step, ten row blocks at a time.

  The launch has ten grid points. Point `t` reads rows `5000 t … 5000 t + 4999` of the summed messages `agg`, of the
  projected features `h` and of the column `s` of self-loop weights, and the whole bias row `b`; it stores
  `(agg + h · s) + b` followed by the maximum with zero, the column spread along the rows' entries and the bias row spread over the rows,
  and writes the block back as the same rows of the output. Entry `(p, q)` of the output depends on entry `(p, q)` of
  `agg` and `h`, on `s[p, 0]` and on `b[0, q]` only, so each block of the output is a block of ONE whole-array
  function of the four arrays; the ten blocks tile the output.
-/
import proofs.«106310_j51728586113457_1_alg».proof.Proof.Gen.KernelIdeal.Frame
import proofs.«106310_j51728586113457_1_alg».proof.Proof.Layer
import Idealize.ShloMosaic.Lib.Pipeline.Value
import Idealize.ShloMosaic.Lib.ValueIdx

set_option maxRecDepth 16384

noncomputable section

namespace Cert.KernelIdeal.Combine3

open Cert.KernelIdeal Cert.KernelIdeal.Gen
open Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, the bias
    row at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The body's stored value at an entry: the layer's combine of its four loaded blocks. -/
theorem pay_apply (x0 x1 : Vec Ideal S5000x128 .f32) (x2 : Vec Ideal S5000x1 .f32) (x3 : Vec Ideal S1x128 .f32) (j : S5000x128.Idx) :
    k3_pay1 (F := Ideal) x0 x1 x2 x3 j = combineRelu (N := 5000) (C := 128) x0 x1 x2 x3 j := by
  unfold k3_pay1
  simp only [shapeCast_self]
  have hs : broadcastTo S5000x128 (x2 : S5000x1.Idx → EReal) broadcasts_S5000x1_S5000x128 j = x2 (ix2 (j 0) (0 : Fin 1)) :=
    broadcastTo_apply (x2 : S5000x1.Idx → EReal) broadcasts_S5000x1_S5000x128 j (ix2 (n0 := 5000) (n1 := 1) (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 (x3 : S1x128.Idx → EReal) broadcasts_S1x128_S5000x128 j = x3 (ix2 (0 : Fin 1) (j 1)) :=
    broadcastTo_apply (x3 : S1x128.Idx → EReal) broadcasts_S1x128_S5000x128 j (ix2 (n0 := 1) (n1 := 128) (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (F := Ideal) (φ := .f32) (FloatOps.addf (F := Ideal) (φ := .f32) (FloatOps.addf (F := Ideal) (φ := .f32) (x0 j) (FloatOps.mulf (F := Ideal) (φ := .f32) (x1 j) (broadcastTo S5000x128 (x2 : S5000x1.Idx → EReal) broadcasts_S5000x1_S5000x128 j)))
      (broadcastTo S5000x128 (x3 : S1x128.Idx → EReal) broadcasts_S1x128_S5000x128 j)) _ = _
  rw [hs, hb]
  rfl

/-- A row-blocked window's block at point `t` is rows `5000 t …` of its array (windows 0 and 1, of width 128). -/
theorem rows_block0 (c : Dev nD) (t : Fin cfg3.N) (x : S5000x128.Idx) (k : S50000x128.Idx)
    (hk0 : (k 0).val = 5000 * t.val + (x 0).val) (hk1 : (k 1).val = (x 1).val) :
    (iblk3 V c 0 t : S5000x128.Idx → EReal) x = (V c (Pipeline.arrRef spec3 0) : S50000x128.Idx → EReal) k := by
  obtain ⟨e0, e1, -⟩ := idx_facts t
  unfold iblk3
  rw [View.read_apply]
  refine congrArg (V c (Pipeline.arrRef spec3 0) : S50000x128.Idx → EReal) ?_
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

theorem rows_block1 (c : Dev nD) (t : Fin cfg3.N) (x : S5000x128.Idx) (k : S50000x128.Idx)
    (hk0 : (k 0).val = 5000 * t.val + (x 0).val) (hk1 : (k 1).val = (x 1).val) :
    (iblk3 V c 1 t : S5000x128.Idx → EReal) x = (V c (Pipeline.arrRef spec3 1) : S50000x128.Idx → EReal) k := by
  obtain ⟨-, -, e0, e1, -⟩ := idx_facts t
  unfold iblk3
  rw [View.read_apply]
  refine congrArg (V c (Pipeline.arrRef spec3 1) : S50000x128.Idx → EReal) ?_
  funext a
  apply Fin.ext
  match a with
  | ⟨0, _⟩ => show win3_1.index t 0 * 5000 + 1 * (x 0).val = (k 0).val; rw [e0, hk0]; omega
  | ⟨1, _⟩ => show win3_1.index t 1 * 128 + 1 * (x 1).val = (k 1).val; rw [e1, hk1]; omega

/-- The weight column's block at point `t` is rows `5000 t …` of the column. -/
theorem column_block (c : Dev nD) (t : Fin cfg3.N) (x : S5000x1.Idx) (k : S50000x1.Idx)
    (hk0 : (k 0).val = 5000 * t.val + (x 0).val) (hk1 : (k 1).val = (x 1).val) :
    (iblk3 V c 2 t : S5000x1.Idx → EReal) x = (V c (Pipeline.arrRef spec3 2) : S50000x1.Idx → EReal) k := by
  obtain ⟨-, -, -, -, e0, e1, -⟩ := idx_facts t
  unfold iblk3
  rw [View.read_apply]
  refine congrArg (V c (Pipeline.arrRef spec3 2) : S50000x1.Idx → EReal) ?_
  funext a
  apply Fin.ext
  match a with
  | ⟨0, _⟩ => show win3_2.index t 0 * 5000 + 1 * (x 0).val = (k 0).val; rw [e0, hk0]; omega
  | ⟨1, _⟩ => show win3_2.index t 1 * 1 + 1 * (x 1).val = (k 1).val; rw [e1, hk1]; omega

/-- The bias row's block at every point is the whole row. -/
theorem bias_block (c : Dev nD) (t : Fin cfg3.N) (x : S1x128.Idx) :
    (iblk3 V c 3 t : S1x128.Idx → EReal) x = (V c (Pipeline.arrRef spec3 3) : S1x128.Idx → EReal) x := by
  obtain ⟨-, -, -, -, -, -, e0, e1, -⟩ := idx_facts t
  unfold iblk3
  rw [View.read_apply]
  refine congrArg (V c (Pipeline.arrRef spec3 3) : S1x128.Idx → EReal) ?_
  funext a
  apply Fin.ext
  match a with
  | ⟨0, _⟩ => show win3_3.index t 0 * 1 + 1 * (x 0).val = (x 0).val; rw [e0]; omega
  | ⟨1, _⟩ => show win3_3.index t 1 * 128 + 1 * (x 1).val = (x 1).val; rw [e1]; omega

set_option maxHeartbeats 1600000 in
/-- What point `t` writes back is block `t` of the combine of the four arrays as the launch finds them. -/
theorem flushed_eq (c : Dev nD) (t : Fin cfg3.N) :
    (dat3 V c).flushed 4 t = ((cfg3.win 4).blk t).view.read (Elt Ideal)
      (combineRelu (N := 50000) (C := 128) (V c (Pipeline.arrRef spec3 0)) (V c (Pipeline.arrRef spec3 1))
        (V c (Pipeline.arrRef spec3 2)) (V c (Pipeline.arrRef spec3 3))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  refine funext fun (j : S5000x128.Idx) => ?_
  show k3_pay1 (F := Ideal) (iblk3 V c 0 t) (iblk3 V c 1 t) (iblk3 V c 2 t) (iblk3 V c 3 t) j
      = combineRelu (N := 50000) (C := 128) (V c (Pipeline.arrRef spec3 0)) (V c (Pipeline.arrRef spec3 1))
        (V c (Pipeline.arrRef spec3 2)) (V c (Pipeline.arrRef spec3 3)) (((cfg3.win 4).blk t).view.emb j)
  refine (pay_apply (iblk3 V c 0 t) (iblk3 V c 1 t) (iblk3 V c 2 t) (iblk3 V c 3 t) j).trans ?_
  have r0 : (((cfg3.win 4).blk t).view.emb j 0).val = 5000 * t.val + (j 0).val := by
    show win3_4.index t 0 * 5000 + 1 * (j 0).val = 5000 * t.val + (j 0).val
    rw [e8]; omega
  have r1 : (((cfg3.win 4).blk t).view.emb j 1).val = (j 1).val := by
    show win3_4.index t 1 * 128 + 1 * (j 1).val = (j 1).val
    rw [e9]; omega
  refine combineRelu_congr (N := 50000) (N' := 5000) (C := 128) (C' := 128) _ _ _ _ _ _ _ _ _ j ?_ ?_ ?_ ?_
  · exact rows_block0 V c t j _ r0 r1
  · exact rows_block1 V c t j _ r0 r1
  · exact column_block V c t _ _ r0 rfl
  · refine (bias_block V c t (ix2 (n0 := 1) (n1 := 128) (0 : Fin 1) (j 1))).trans (congrArg (V c (Pipeline.arrRef spec3 3) : S1x128.Idx → EReal) ?_)
    funext a
    apply Fin.ext
    match a with
    | ⟨0, _⟩ => rfl
    | ⟨1, _⟩ => exact r1.symm

/-- Every entry of the output lies in the block of the point numbered by its row divided by 5000. -/
theorem cover (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hlt : (i 0).val / 5000 < grid3.N := by rw [N_3]; omega
  obtain ⟨-, -, -, -, -, -, -, -, e8, e9⟩ := idx_facts ⟨(i 0).val / 5000, hlt⟩
  refine ⟨⟨(i 0).val / 5000, hlt⟩, flush3_4 _, ?_⟩
  show i ∈ ((View.whole main_v76).slice (win3_4.rect ⟨(i 0).val / 5000, hlt⟩)).set
  rw [View.set_slice_whole, Rect.mem_set_unit]
  intro a
  match a with
  | ⟨0, _⟩ =>
    show win3_4.index ⟨(i 0).val / 5000, hlt⟩ 0 * 5000 ≤ (i 0).val ∧ (i 0).val < win3_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win3_4.index ⟨(i 0).val / 5000, hlt⟩ 1 * 128 ≤ (i 1).val ∧ (i 1).val < win3_4.index ⟨(i 0).val / 5000, hlt⟩ 1 * 128 + 128
    rw [e9]; omega

/-- After the launch the output array holds the combine of the four arrays as the launch found them. -/
theorem final (c : Dev nD) : (dat3 V c).arrAt 4 cfg3.N
    = combineRelu (N := 50000) (C := 128) (V c (Pipeline.arrRef spec3 0)) (V c (Pipeline.arrRef spec3 1))
        (V c (Pipeline.arrRef spec3 2)) (V c (Pipeline.arrRef spec3 3)) :=
  (dat3 V c).arrAt_eq_of_cover 4 _ (fun t _ => flushed_eq V c t) (cover)

end Cert.KernelIdeal.Combine3

end
-- ==== Proof.Chain2.lean ====
/-
  The kernel's buffers followed through layer 2.

  The program's state between segments is the generated fold `W0 … W14`. For every buffer a later segment reads, the
  value it holds at the boundary is stated as a stage of the reference applied to the launch contents of the argument
  arrays: a buffer no segment writes is carried unchanged, a host stretch applies the same operations as the
  reference to buffers already identified, a product launch leaves the whole product, a combine launch the combine.
-/
import proofs.«106310_j51728586113457_1_alg».proof.Proof.Chain1
import proofs.«106310_j51728586113457_1_alg».proof.Proof.Product2
import proofs.«106310_j51728586113457_1_alg».proof.Proof.Combine3
import Idealize.ShloMosaic.Lib.StableHlo.Run
import Idealize.ShloMosaic.Lib.Pipeline.Value

set_option maxRecDepth 16384
-- a host stretch of forty operations is read back in one pass
set_option maxHeartbeats 4000000

noncomputable section

namespace Cert.KernelIdeal.Chain

open Cert.KernelIdeal Cert.KernelIdeal.Gen
open Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 5 -/

theorem at5_arg6 : W5 m ρ c (Proc.devRef .tc main_arg6) = (m ((c : Thread nD τ).loc main_arg6)) :=
  (W5_of_ne m ρ c main_arg6 (by decide)).trans (at4_arg6 m ρ c)
theorem at5_arg7 : W5 m ρ c (Proc.devRef .tc main_arg7) = (m ((c : Thread nD τ).loc main_arg7)) :=
  (W5_of_ne m ρ c main_arg7 (by decide)).trans (at4_arg7 m ρ c)
theorem at5_arg8 : W5 m ρ c (Proc.devRef .tc main_arg8) = (m ((c : Thread nD τ).loc main_arg8)) :=
  (W5_of_ne m ρ c main_arg8 (by decide)).trans (at4_arg8 m ρ c)
theorem at5_arg9 : W5 m ρ c (Proc.devRef .tc main_arg9) = (m ((c : Thread nD τ).loc main_arg9)) :=
  (W5_of_ne m ρ c main_arg9 (by decide)).trans (at4_arg9 m ρ c)
theorem at5_arg10 : W5 m ρ c (Proc.devRef .tc main_arg10) = (m ((c : Thread nD τ).loc main_arg10)) :=
  (W5_of_ne m ρ c main_arg10 (by decide)).trans (at4_arg10 m ρ c)
theorem at5_arg2 : W5 m ρ c (Proc.devRef .tc main_arg2) = (m ((c : Thread nD τ).loc main_arg2)) :=
  (W5_of_ne m ρ c main_arg2 (by decide)).trans (at4_arg2 m ρ c)
theorem at5_v1 : W5 m ρ c (Proc.devRef .tc main_v1) = Cert.ReferenceIdeal.Read.val_main_v1 (F := Ideal) (m ((c : Thread nD τ).loc main_arg1)) :=
  (W5_of_ne m ρ c main_v1 (by decide)).trans (at4_v1 m ρ c)
theorem at5_v3 : W5 m ρ c (Proc.devRef .tc main_v3) = Cert.ReferenceIdeal.Read.val_main_v3 (F := Ideal) (m ((c : Thread nD τ).loc main_arg1)) :=
  (W5_of_ne m ρ c main_v3 (by decide)).trans (at4_v3 m ρ c)
theorem at5_v10 : W5 m ρ c (Proc.devRef .tc main_v10) = Cert.ReferenceIdeal.Read.val_main_v10 (F := Ideal) (m ((c : Thread nD τ).loc main_arg1)) :=
  (W5_of_ne m ρ c main_v10 (by decide)).trans (at4_v10 m ρ c)

/-- Layer 2's features: the launch leaves the whole product, which is the reference's `dot_general` stage. -/
theorem at5_v44 : W5 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W5_arr m ρ c 2).trans ((Product2.final (V4 m ρ) c).trans
    ((congrArg₂ (Cert.Lib.PlainDot.rowsByCols (M := 50000) (K := 128) (N := 128)) (at4_v43 m ρ c) (at4_arg5 m ρ c)).trans
      (Cert.ReferenceIdeal.Stages.features2 (m ((c : Thread nD τ).loc main_arg0)) (m ((c : Thread nD τ).loc main_arg1)) (m ((c : Thread nD τ).loc main_arg3)) (m ((c : Thread nD τ).loc main_arg4)) (m ((c : Thread nD τ).loc main_arg5))).symm))

/-! ## Boundary 6 -/

theorem at6_arg7 : W6 m ρ c (Proc.devRef .tc main_arg7) = (m ((c : Thread nD τ).loc main_arg7)) :=
  (show W6 m ρ c (Proc.devRef .tc main_arg7) = W5 m ρ c (Proc.devRef .tc main_arg7) by host_keeps).trans (at5_arg7 m ρ c)
theorem at6_arg8 : W6 m ρ c (Proc.devRef .tc main_arg8) = (m ((c : Thread nD τ).loc main_arg8)) :=
  (show W6 m ρ c (Proc.devRef .tc main_arg8) = W5 m ρ c (Proc.devRef .tc main_arg8) by host_keeps).trans (at5_arg8 m ρ c)
theorem at6_arg9 : W6 m ρ c (Proc.devRef .tc main_arg9) = (m ((c : Thread nD τ).loc main_arg9)) :=
  (show W6 m ρ c (Proc.devRef .tc main_arg9) = W5 m ρ c (Proc.devRef .tc main_arg9) by host_keeps).trans (at5_arg9 m ρ c)
theorem at6_arg10 : W6 m ρ c (Proc.devRef .tc main_arg10) = (m ((c : Thread nD τ).loc main_arg10)) :=
  (show W6 m ρ c (Proc.devRef .tc main_arg10) = W5 m ρ c (Proc.devRef .tc main_arg10) by host_keeps).trans (at5_arg10 m ρ c)
theorem at6_arg2 : W6 m ρ c (Proc.devRef .tc main_arg2) = (m ((c : Thread nD τ).loc main_arg2)) :=
  (show W6 m ρ c (Proc.devRef .tc main_arg2) = W5 m ρ c (Proc.devRef .tc main_arg2) by host_keeps).trans (at5_arg2 m ρ c)
theorem at6_v1 : W6 m ρ c (Proc.devRef .tc main_v1) = Cert.ReferenceIdeal.Read.val_main_v1 (F := Ideal) (m ((c : Thread nD τ).loc main_arg1)) :=
  (show W6 m ρ c (Proc.devRef .tc main_v1) = W5 m ρ c (Proc.devRef .tc main_v1) by host_keeps).trans (at5_v1 m ρ c)
theorem at6_v3 : W6 m ρ c (Proc.devRef .tc main_v3) = Cert.ReferenceIdeal.Read.val_main_v3 (F := Ideal) (m ((c : Thread nD τ).loc main_arg1)) :=
  (show W6 m ρ c (Proc.devRef .tc main_v3) = W5 m ρ c (Proc.devRef .tc main_v3) by host_keeps).trans (at5_v3 m ρ c)
theorem at6_v10 : W6 m ρ c (Proc.devRef .tc main_v10) = Cert.ReferenceIdeal.Read.val_main_v10 (F := Ideal) (m ((c : Thread nD τ).loc main_arg1)) :=
  (show W6 m ρ c (Proc.devRef .tc main_v10) = W5 m ρ c (Proc.devRef .tc main_v10) by host_keeps).trans (at5_v10 m ρ c)
theorem at6_v44 : W6 m ρ c (Proc.devRef .tc main_v44) = Cert.ReferenceIdeal.Read.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (show W6 m ρ c (Proc.devRef .tc main_v44) = W5 m ρ c (Proc.devRef .tc main_v44) by host_keeps).trans (at5_v44 m ρ c)

/-- Layer 2's message passing on the host: the same gathers, products and scatter-add as the reference's, applied to
    the same features, sources, targets and inverse root degrees. -/
theorem at6_v72 : W6 m ρ c (Proc.devRef .tc main_v72) = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v72) = _
  dsimp only [hostOps3]
  after_results_simp
  rw [at5_v44 m ρ c, at5_v1 m ρ c, at5_v3 m ρ c, at5_v10 m ρ c]
  try rfl

/-- The self-loop weights: the squared inverse root degrees as a column. -/
theorem at6_v74 : W6 m ρ c (Proc.devRef .tc main_v74) = Cert.ReferenceIdeal.Read.val_main_v79 (F := Ideal) (m ((c : Thread nD τ).loc main_arg1)) := by
  show StableHlo.after hostOps3 (W5 m ρ c) (Proc.devRef .tc main_v74) = _
  dsimp only [hostOps3]
  after_results_simp
  rw [at5_v10 m ρ c]
  try rfl

/-- The bias reshaped to one row. -/
theorem at6_v75 : W6 m ρ c (Proc.devRef .tc main_v75) = shapeCast S1x128 (m ((c : Thread nD τ).loc main_arg6)) shapeCasts_S128_S1x128 := by
  show StableHlo.after hostOps3 (W5 m ρ c) (Proc.devRef .tc main_v75) = _
  dsimp only [hostOps3]
  after_results_simp
  rw [at5_arg6 m ρ c]
  try rfl

/-! ## Boundary 7 -/

theorem at7_arg7 : W7 m ρ c (Proc.devRef .tc main_arg7) = (m ((c : Thread nD τ).loc main_arg7)) :=
  (W7_of_ne m ρ c main_arg7 (by decide)).trans (at6_arg7 m ρ c)
theorem at7_arg8 : W7 m ρ c (Proc.devRef .tc main_arg8) = (m ((c : Thread nD τ).loc main_arg8)) :=
  (W7_of_ne m ρ c main_arg8 (by decide)).trans (at6_arg8 m ρ c)
theorem at7_arg9 : W7 m ρ c (Proc.devRef .tc main_arg9) = (m ((c : Thread nD τ).loc main_arg9)) :=
  (W7_of_ne m ρ c main_arg9 (by decide)).trans (at6_arg9 m ρ c)
theorem at7_arg10 : W7 m ρ c (Proc.devRef .tc main_arg10) = (m ((c : Thread nD τ).loc main_arg10)) :=
  (W7_of_ne m ρ c main_arg10 (by decide)).trans (at6_arg10 m ρ c)
theorem at7_arg2 : W7 m ρ c (Proc.devRef .tc main_arg2) = (m ((c : Thread nD τ).loc main_arg2)) :=
  (W7_of_ne m ρ c main_arg2 (by decide)).trans (at6_arg2 m ρ c)
theorem at7_v1 : W7 m ρ c (Proc.devRef .tc main_v1) = Cert.ReferenceIdeal.Read.val_main_v1 (F := Ideal) (m ((c : Thread nD τ).loc main_arg1)) :=
  (W7_of_ne m ρ c main_v1 (by decide)).trans (at6_v1 m ρ c)
theorem at7_v3 : W7 m ρ c (Proc.devRef .tc main_v3) = Cert.ReferenceIdeal.Read.val_main_v3 (F := Ideal) (m ((c : Thread nD τ).loc main_arg1)) :=
  (W7_of_ne m ρ c main_v3 (by decide)).trans (at6_v3 m ρ c)
theorem at7_v10 : W7 m ρ c (Proc.devRef .tc main_v10) = Cert.ReferenceIdeal.Read.val_main_v10 (F := Ideal) (m ((c : Thread nD τ).loc main_arg1)) :=
  (W7_of_ne m ρ c main_v10 (by decide)).trans (at6_v10 m ρ c)

/-- Layer 2's output: the launch leaves the combine of its four arrays, which is the reference's spelt-out stage. -/
theorem at7_v76 : W7 m ρ c (Proc.devRef .tc main_v76) = Cert.ReferenceIdeal.Read.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W7_arr m ρ c 4).trans ((Combine3.final (V6 m ρ) c).trans
    ((Cert.Layer.combineRelu_args (N := 50000) (C := 128) (at6_v72 m ρ c) (at6_v44 m ρ c) (at6_v74 m ρ c) (at6_v75 m ρ c)).trans
      (Cert.ReferenceIdeal.Stages.out2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) shapeCasts_S128_S1x128).symm))

end Cert.KernelIdeal.Chain

end
-- ==== Proof.Product4.lean ====
/-
  Launch 4: a matrix product computed ten row blocks at a time.

  The launch has ten grid points. Point `t` reads rows `5000 t … 5000 t + 4999` of the left array (a block of
  5000 rows, all 128 columns) and the whole right array, multiplies the two blocks into a zero accumulator
  (the change of float format in front of the product is the identity on the extended reals) and writes the
  5000 × 128 result back as rows `5000 t …` of the output. A row of a product depends on that row of the left
  operand only, so block `t` of the whole product IS the product of block `t`; the ten blocks tile the output,
  hence after the launch the output array holds the whole product, entry `(a, b) = ∑ k, l[a,k] · r[k,b]`,
  whatever the two input arrays held when the launch was entered.
-/
import proofs.«106310_j51728586113457_1_alg».proof.Proof.Gen.KernelIdeal.Frame
import proofs.«106310_j51728586113457_1_alg».proof.Proof.LibPlainDot
import Idealize.ShloMosaic.Lib.Pipeline.Value
import Idealize.ShloMosaic.Lib.ValueIdx

set_option maxRecDepth 16384

noncomputable section

namespace Cert.KernelIdeal.Product4

open Cert.KernelIdeal Cert.KernelIdeal.Gen
open Idealize.ShloMosaic Idealize.ShloMosaic.TcCoe Idealize.SL.Sem Idealize.ShloMosaic.ValueIdx
open Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's block row is the point's number, every
    other block coordinate is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The body's one stored value is the product of its two loaded blocks. -/
theorem pay_eq (x0 : Vec Ideal S5000x128 .f32) (x1 : Vec Ideal S128x128 .f32) :
    k4_pay1 (F := Ideal) x0 x1 = rowsByCols (M := 5000) (K := 128) (N := 128) x0 x1 := by
  unfold k4_pay1
  simp only [shapeCast_self]
  exact matmul_zero_eq (M := 5000) (K := 128) (N := 128) dot_S5000x128_S128x128_S5000x128_1_0_0_1_n_n rfl none _ _

/-- The left window's block at point `t` is rows `5000 t …` of its array. -/
theorem left_block (c : Dev nD) (t : Fin cfg4.N) (x : S5000x128.Idx) (k : S50000x128.Idx)
    (hk0 : (k 0).val = 5000 * t.val + (x 0).val) (hk1 : (k 1).val = (x 1).val) :
    (iblk4 V c 0 t : S5000x128.Idx → EReal) x = (V c (Pipeline.arrRef spec4 0) : S50000x128.Idx → EReal) k := by
  obtain ⟨e0, e1, -⟩ := idx_facts t
  unfold iblk4
  rw [View.read_apply]
  refine congrArg (V c (Pipeline.arrRef spec4 0) : S50000x128.Idx → EReal) ?_
  funext a
  apply Fin.ext
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- The right window's block at every point is its whole array. -/
theorem right_block (c : Dev nD) (t : Fin cfg4.N) (x : S128x128.Idx) :
    (iblk4 V c 1 t : S128x128.Idx → EReal) x = (V c (Pipeline.arrRef spec4 1) : S128x128.Idx → EReal) x := by
  obtain ⟨-, -, e2, e3, -⟩ := idx_facts t
  unfold iblk4
  rw [View.read_apply]
  refine congrArg (V c (Pipeline.arrRef spec4 1) : S128x128.Idx → EReal) ?_
  funext a
  apply Fin.ext
  match a with
  | ⟨0, _⟩ => show win4_1.index t 0 * 128 + 1 * (x 0).val = (x 0).val; rw [e2]; omega
  | ⟨1, _⟩ => show win4_1.index t 1 * 128 + 1 * (x 1).val = (x 1).val; rw [e3]; omega

set_option maxHeartbeats 1600000 in
/-- What point `t` writes back is block `t` of the whole product of the two arrays as the launch finds them. -/
theorem flushed_eq (c : Dev nD) (t : Fin cfg4.N) :
    (dat4 V c).flushed 2 t = ((cfg4.win 2).blk t).view.read (Elt Ideal)
      (rowsByCols (M := 50000) (K := 128) (N := 128) (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x128) hz]
  rw [pay_eq]
  obtain ⟨-, -, -, -, e4, e5⟩ := idx_facts t
  refine funext fun (j : S5000x128.Idx) => ?_
  show rowsByCols (M := 5000) (K := 128) (N := 128) (iblk4 V c 0 t) (iblk4 V c 1 t) j
      = rowsByCols (M := 50000) (K := 128) (N := 128) (V c (Pipeline.arrRef spec4 0)) (V c (Pipeline.arrRef spec4 1))
        (((cfg4.win 2).blk t).view.emb j)
  refine rowsByCols_congr (M := 50000) (M' := 5000) (K := 128) (N := 128) (N' := 128) _ _ _ _ j _ (fun k => ?_) (fun k => ?_)
  · refine left_block V c t _ _ ?_ rfl
    show (((cfg4.win 2).blk t).view.emb j 0).val = 5000 * t.val + (j 0).val
    show win4_2.index t 0 * 5000 + 1 * (j 0).val = 5000 * t.val + (j 0).val
    rw [e4]; omega
  · refine (right_block V c t _).trans (congrArg (V c (Pipeline.arrRef spec4 1) : S128x128.Idx → EReal) ?_)
    funext a
    apply Fin.ext
    match a with
    | ⟨0, _⟩ => rfl
    | ⟨1, _⟩ => show (j 1).val = win4_2.index t 1 * 128 + 1 * (j 1).val; rw [e5]; omega

/-- Every entry of the output lies in the block of the point numbered by its row divided by 5000. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hlt : (i 0).val / 5000 < grid4.N := by rw [N_4]; omega
  obtain ⟨-, -, -, -, e4, e5⟩ := idx_facts ⟨(i 0).val / 5000, hlt⟩
  refine ⟨⟨(i 0).val / 5000, hlt⟩, flush4_2 _, ?_⟩
  show i ∈ ((View.whole main_v77).slice (win4_2.rect ⟨(i 0).val / 5000, hlt⟩)).set
  rw [View.set_slice_whole, Rect.mem_set_unit]
  intro a
  match a with
  | ⟨0, _⟩ =>
    show win4_2.index ⟨(i 0).val / 5000, hlt⟩ 0 * 5000 ≤ (i 0).val ∧ (i 0).val < win4_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win4_2.index ⟨(i 0).val / 5000, hlt⟩ 1 * 128 ≤ (i 1).val ∧ (i 1).val < win4_2.index ⟨(i 0).val / 5000, hlt⟩ 1 * 128 + 128
    rw [e5]; omega

/-- After the launch the output array holds the whole product of the two arrays as the launch found them. -/
theorem final (c : Dev nD) : (dat4 V c).arrAt 2 cfg4.N
    = rowsByCols (M := 50000) (K := 128) (N := 128) (V c (Pipeline.arrRef spec4 0)) (V c (Pipeline.arrRef spec4 1)) :=
  (dat4 V c).arrAt_eq_of_cover 2 _ (fun t _ => flushed_eq V c t) (cover)

end Cert.KernelIdeal.Product4

end
-- ==== Proof.Combine5.lean ====
/-
  Launch 5: a layer's last step, ten row blocks at a time.

  The launch has ten grid points. Point `t` reads rows `5000 t … 5000 t + 4999` of the summed messages `agg`, of the
  projected features `h` and of the column `s` of self-loop weights, and the whole bias row `b`; it stores
  `(agg + h · s) + b` followed by the maximum with zero, the column spread along the rows' entries and the bias row spread over the rows,
  and writes the block back as the same rows of the output. Entry `(p, q)` of the output depends on entry `(p, q)` of
  `agg` and `h`, on `s[p, 0]` and on `b[0, q]` only, so each block of the output is a block of ONE whole-array
  function of the four arrays; the ten blocks tile the output.
-/
import proofs.«106310_j51728586113457_1_alg».proof.Proof.Gen.KernelIdeal.Frame
import proofs.«106310_j51728586113457_1_alg».proof.Proof.Layer
import Idealize.ShloMosaic.Lib.Pipeline.Value
import Idealize.ShloMosaic.Lib.ValueIdx

set_option maxRecDepth 16384

noncomputable section

namespace Cert.KernelIdeal.Combine5

open Cert.KernelIdeal Cert.KernelIdeal.Gen
open Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, the bias
    row at block (0, 0). -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The body's stored value at an entry: the layer's combine of its four loaded blocks. -/
theorem pay_apply (x0 x1 : Vec Ideal S5000x128 .f32) (x2 : Vec Ideal S5000x1 .f32) (x3 : Vec Ideal S1x128 .f32) (j : S5000x128.Idx) :
    k5_pay1 (F := Ideal) x0 x1 x2 x3 j = combineRelu (N := 5000) (C := 128) x0 x1 x2 x3 j := by
  unfold k5_pay1
  simp only [shapeCast_self]
  have hs : broadcastTo S5000x128 (x2 : S5000x1.Idx → EReal) broadcasts_S5000x1_S5000x128 j = x2 (ix2 (j 0) (0 : Fin 1)) :=
    broadcastTo_apply (x2 : S5000x1.Idx → EReal) broadcasts_S5000x1_S5000x128 j (ix2 (n0 := 5000) (n1 := 1) (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x128 (x3 : S1x128.Idx → EReal) broadcasts_S1x128_S5000x128 j = x3 (ix2 (0 : Fin 1) (j 1)) :=
    broadcastTo_apply (x3 : S1x128.Idx → EReal) broadcasts_S1x128_S5000x128 j (ix2 (n0 := 1) (n1 := 128) (0 : Fin 1) (j 1)) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  show FloatOps.maximumf (F := Ideal) (φ := .f32) (FloatOps.addf (F := Ideal) (φ := .f32) (FloatOps.addf (F := Ideal) (φ := .f32) (x0 j) (FloatOps.mulf (F := Ideal) (φ := .f32) (x1 j) (broadcastTo S5000x128 (x2 : S5000x1.Idx → EReal) broadcasts_S5000x1_S5000x128 j)))
      (broadcastTo S5000x128 (x3 : S1x128.Idx → EReal) broadcasts_S1x128_S5000x128 j)) _ = _
  rw [hs, hb]
  rfl

/-- A row-blocked window's block at point `t` is rows `5000 t …` of its array (windows 0 and 1, of width 128). -/
theorem rows_block0 (c : Dev nD) (t : Fin cfg5.N) (x : S5000x128.Idx) (k : S50000x128.Idx)
    (hk0 : (k 0).val = 5000 * t.val + (x 0).val) (hk1 : (k 1).val = (x 1).val) :
    (iblk5 V c 0 t : S5000x128.Idx → EReal) x = (V c (Pipeline.arrRef spec5 0) : S50000x128.Idx → EReal) k := by
  obtain ⟨e0, e1, -⟩ := idx_facts t
  unfold iblk5
  rw [View.read_apply]
  refine congrArg (V c (Pipeline.arrRef spec5 0) : S50000x128.Idx → EReal) ?_
  funext a
  apply Fin.ext
  match a with
  | ⟨0, _⟩ => show win5_0.index t 0 * 5000 + 1 * (x 0).val = (k 0).val; rw [e0, hk0]; omega
  | ⟨1, _⟩ => show win5_0.index t 1 * 128 + 1 * (x 1).val = (k 1).val; rw [e1, hk1]; omega

theorem rows_block1 (c : Dev nD) (t : Fin cfg5.N) (x : S5000x128.Idx) (k : S50000x128.Idx)
    (hk0 : (k 0).val = 5000 * t.val + (x 0).val) (hk1 : (k 1).val = (x 1).val) :
    (iblk5 V c 1 t : S5000x128.Idx → EReal) x = (V c (Pipeline.arrRef spec5 1) : S50000x128.Idx → EReal) k := by
  obtain ⟨-, -, e0, e1, -⟩ := idx_facts t
  unfold iblk5
  rw [View.read_apply]
  refine congrArg (V c (Pipeline.arrRef spec5 1) : S50000x128.Idx → EReal) ?_
  funext a
  apply Fin.ext
  match a with
  | ⟨0, _⟩ => show win5_1.index t 0 * 5000 + 1 * (x 0).val = (k 0).val; rw [e0, hk0]; omega
  | ⟨1, _⟩ => show win5_1.index t 1 * 128 + 1 * (x 1).val = (k 1).val; rw [e1, hk1]; omega

/-- The weight column's block at point `t` is rows `5000 t …` of the column. -/
theorem column_block (c : Dev nD) (t : Fin cfg5.N) (x : S5000x1.Idx) (k : S50000x1.Idx)
    (hk0 : (k 0).val = 5000 * t.val + (x 0).val) (hk1 : (k 1).val = (x 1).val) :
    (iblk5 V c 2 t : S5000x1.Idx → EReal) x = (V c (Pipeline.arrRef spec5 2) : S50000x1.Idx → EReal) k := by
  obtain ⟨-, -, -, -, e0, e1, -⟩ := idx_facts t
  unfold iblk5
  rw [View.read_apply]
  refine congrArg (V c (Pipeline.arrRef spec5 2) : S50000x1.Idx → EReal) ?_
  funext a
  apply Fin.ext
  match a with
  | ⟨0, _⟩ => show win5_2.index t 0 * 5000 + 1 * (x 0).val = (k 0).val; rw [e0, hk0]; omega
  | ⟨1, _⟩ => show win5_2.index t 1 * 1 + 1 * (x 1).val = (k 1).val; rw [e1, hk1]; omega

/-- The bias row's block at every point is the whole row. -/
theorem bias_block (c : Dev nD) (t : Fin cfg5.N) (x : S1x128.Idx) :
    (iblk5 V c 3 t : S1x128.Idx → EReal) x = (V c (Pipeline.arrRef spec5 3) : S1x128.Idx → EReal) x := by
  obtain ⟨-, -, -, -, -, -, e0, e1, -⟩ := idx_facts t
  unfold iblk5
  rw [View.read_apply]
  refine congrArg (V c (Pipeline.arrRef spec5 3) : S1x128.Idx → EReal) ?_
  funext a
  apply Fin.ext
  match a with
  | ⟨0, _⟩ => show win5_3.index t 0 * 1 + 1 * (x 0).val = (x 0).val; rw [e0]; omega
  | ⟨1, _⟩ => show win5_3.index t 1 * 128 + 1 * (x 1).val = (x 1).val; rw [e1]; omega

set_option maxHeartbeats 1600000 in
/-- What point `t` writes back is block `t` of the combine of the four arrays as the launch finds them. -/
theorem flushed_eq (c : Dev nD) (t : Fin cfg5.N) :
    (dat5 V c).flushed 4 t = ((cfg5.win 4).blk t).view.read (Elt Ideal)
      (combineRelu (N := 50000) (C := 128) (V c (Pipeline.arrRef spec5 0)) (V c (Pipeline.arrRef spec5 1))
        (V c (Pipeline.arrRef spec5 2)) (V c (Pipeline.arrRef spec5 3))) := by
  show (cfg5.win 4).cut (grid5.coords t) ((dat5 V c).after 4 t) = _
  rw [after5_4]
  unfold out5_4
  rw [View.canon_unit_zero hz]
  simp only [View.ld_unit_zero (S := S5000x128) hz, View.ld_unit_zero (S := S5000x1) hz, View.ld_unit_zero (S := S1x128) hz]
  obtain ⟨-, -, -, -, -, -, -, -, e8, e9⟩ := idx_facts t
  refine funext fun (j : S5000x128.Idx) => ?_
  show k5_pay1 (F := Ideal) (iblk5 V c 0 t) (iblk5 V c 1 t) (iblk5 V c 2 t) (iblk5 V c 3 t) j
      = combineRelu (N := 50000) (C := 128) (V c (Pipeline.arrRef spec5 0)) (V c (Pipeline.arrRef spec5 1))
        (V c (Pipeline.arrRef spec5 2)) (V c (Pipeline.arrRef spec5 3)) (((cfg5.win 4).blk t).view.emb j)
  refine (pay_apply (iblk5 V c 0 t) (iblk5 V c 1 t) (iblk5 V c 2 t) (iblk5 V c 3 t) j).trans ?_
  have r0 : (((cfg5.win 4).blk t).view.emb j 0).val = 5000 * t.val + (j 0).val := by
    show win5_4.index t 0 * 5000 + 1 * (j 0).val = 5000 * t.val + (j 0).val
    rw [e8]; omega
  have r1 : (((cfg5.win 4).blk t).view.emb j 1).val = (j 1).val := by
    show win5_4.index t 1 * 128 + 1 * (j 1).val = (j 1).val
    rw [e9]; omega
  refine combineRelu_congr (N := 50000) (N' := 5000) (C := 128) (C' := 128) _ _ _ _ _ _ _ _ _ j ?_ ?_ ?_ ?_
  · exact rows_block0 V c t j _ r0 r1
  · exact rows_block1 V c t j _ r0 r1
  · exact column_block V c t _ _ r0 rfl
  · refine (bias_block V c t (ix2 (n0 := 1) (n1 := 128) (0 : Fin 1) (j 1))).trans (congrArg (V c (Pipeline.arrRef spec5 3) : S1x128.Idx → EReal) ?_)
    funext a
    apply Fin.ext
    match a with
    | ⟨0, _⟩ => rfl
    | ⟨1, _⟩ => exact r1.symm

/-- Every entry of the output lies in the block of the point numbered by its row divided by 5000. -/
theorem cover (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hlt : (i 0).val / 5000 < grid5.N := by rw [N_5]; omega
  obtain ⟨-, -, -, -, -, -, -, -, e8, e9⟩ := idx_facts ⟨(i 0).val / 5000, hlt⟩
  refine ⟨⟨(i 0).val / 5000, hlt⟩, flush5_4 _, ?_⟩
  show i ∈ ((View.whole main_v109).slice (win5_4.rect ⟨(i 0).val / 5000, hlt⟩)).set
  rw [View.set_slice_whole, Rect.mem_set_unit]
  intro a
  match a with
  | ⟨0, _⟩ =>
    show win5_4.index ⟨(i 0).val / 5000, hlt⟩ 0 * 5000 ≤ (i 0).val ∧ (i 0).val < win5_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win5_4.index ⟨(i 0).val / 5000, hlt⟩ 1 * 128 ≤ (i 1).val ∧ (i 1).val < win5_4.index ⟨(i 0).val / 5000, hlt⟩ 1 * 128 + 128
    rw [e9]; omega

/-- After the launch the output array holds the combine of the four arrays as the launch found them. -/
theorem final (c : Dev nD) : (dat5 V c).arrAt 4 cfg5.N
    = combineRelu (N := 50000) (C := 128) (V c (Pipeline.arrRef spec5 0)) (V c (Pipeline.arrRef spec5 1))
        (V c (Pipeline.arrRef spec5 2)) (V c (Pipeline.arrRef spec5 3)) :=
  (dat5 V c).arrAt_eq_of_cover 4 _ (fun t _ => flushed_eq V c t) (cover)

end Cert.KernelIdeal.Combine5

end
-- ==== Proof.Chain3.lean ====
/-
  The kernel's buffers followed through layer 3.

  The program's state between segments is the generated fold `W0 … W14`. For every buffer a later segment reads, the
  value it holds at the boundary is stated as a stage of the reference applied to the launch contents of the argument
  arrays: a buffer no segment writes is carried unchanged, a host stretch applies the same operations as the
  reference to buffers already identified, a product launch leaves the whole product, a combine launch the combine.
-/
import proofs.«106310_j51728586113457_1_alg».proof.Proof.Chain2
import proofs.«106310_j51728586113457_1_alg».proof.Proof.Product4
import proofs.«106310_j51728586113457_1_alg».proof.Proof.Combine5
import Idealize.ShloMosaic.Lib.StableHlo.Run
import Idealize.ShloMosaic.Lib.Pipeline.Value

set_option maxRecDepth 16384
-- a host stretch of forty operations is read back in one pass
set_option maxHeartbeats 4000000

noncomputable section

namespace Cert.KernelIdeal.Chain

open Cert.KernelIdeal Cert.KernelIdeal.Gen
open Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 8 -/

theorem at8_arg8 : W8 m ρ c (Proc.devRef .tc main_arg8) = (m ((c : Thread nD τ).loc main_arg8)) :=
  (W8_of_ne m ρ c main_arg8 (by decide)).trans (at7_arg8 m ρ c)
theorem at8_arg9 : W8 m ρ c (Proc.devRef .tc main_arg9) = (m ((c : Thread nD τ).loc main_arg9)) :=
  (W8_of_ne m ρ c main_arg9 (by decide)).trans (at7_arg9 m ρ c)
theorem at8_arg10 : W8 m ρ c (Proc.devRef .tc main_arg10) = (m ((c : Thread nD τ).loc main_arg10)) :=
  (W8_of_ne m ρ c main_arg10 (by decide)).trans (at7_arg10 m ρ c)
theorem at8_arg2 : W8 m ρ c (Proc.devRef .tc main_arg2) = (m ((c : Thread nD τ).loc main_arg2)) :=
  (W8_of_ne m ρ c main_arg2 (by decide)).trans (at7_arg2 m ρ c)
theorem at8_v1 : W8 m ρ c (Proc.devRef .tc main_v1) = Cert.ReferenceIdeal.Read.val_main_v1 (F := Ideal) (m ((c : Thread nD τ).loc main_arg1)) :=
  (W8_of_ne m ρ c main_v1 (by decide)).trans (at7_v1 m ρ c)
theorem at8_v3 : W8 m ρ c (Proc.devRef .tc main_v3) = Cert.ReferenceIdeal.Read.val_main_v3 (F := Ideal) (m ((c : Thread nD τ).loc main_arg1)) :=
  (W8_of_ne m ρ c main_v3 (by decide)).trans (at7_v3 m ρ c)
theorem at8_v10 : W8 m ρ c (Proc.devRef .tc main_v10) = Cert.ReferenceIdeal.Read.val_main_v10 (F := Ideal) (m ((c : Thread nD τ).loc main_arg1)) :=
  (W8_of_ne m ρ c main_v10 (by decide)).trans (at7_v10 m ρ c)

/-- Layer 3's features: the launch leaves the whole product, which is the reference's `dot_general` stage. -/
theorem at8_v77 : W8 m ρ c (Proc.devRef .tc main_v77) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 2).trans ((Product4.final (V7 m ρ) c).trans
    ((congrArg₂ (Cert.Lib.PlainDot.rowsByCols (M := 50000) (K := 128) (N := 128)) (at7_v76 m ρ c) (at7_arg7 m ρ c)).trans
      (Cert.ReferenceIdeal.Stages.features3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))).symm))

/-! ## Boundary 9 -/

theorem at9_arg9 : W9 m ρ c (Proc.devRef .tc main_arg9) = (m ((c : Thread nD τ).loc main_arg9)) :=
  (show W9 m ρ c (Proc.devRef .tc main_arg9) = W8 m ρ c (Proc.devRef .tc main_arg9) by host_keeps).trans (at8_arg9 m ρ c)
theorem at9_arg10 : W9 m ρ c (Proc.devRef .tc main_arg10) = (m ((c : Thread nD τ).loc main_arg10)) :=
  (show W9 m ρ c (Proc.devRef .tc main_arg10) = W8 m ρ c (Proc.devRef .tc main_arg10) by host_keeps).trans (at8_arg10 m ρ c)
theorem at9_arg2 : W9 m ρ c (Proc.devRef .tc main_arg2) = (m ((c : Thread nD τ).loc main_arg2)) :=
  (show W9 m ρ c (Proc.devRef .tc main_arg2) = W8 m ρ c (Proc.devRef .tc main_arg2) by host_keeps).trans (at8_arg2 m ρ c)
theorem at9_v1 : W9 m ρ c (Proc.devRef .tc main_v1) = Cert.ReferenceIdeal.Read.val_main_v1 (F := Ideal) (m ((c : Thread nD τ).loc main_arg1)) :=
  (show W9 m ρ c (Proc.devRef .tc main_v1) = W8 m ρ c (Proc.devRef .tc main_v1) by host_keeps).trans (at8_v1 m ρ c)
theorem at9_v3 : W9 m ρ c (Proc.devRef .tc main_v3) = Cert.ReferenceIdeal.Read.val_main_v3 (F := Ideal) (m ((c : Thread nD τ).loc main_arg1)) :=
  (show W9 m ρ c (Proc.devRef .tc main_v3) = W8 m ρ c (Proc.devRef .tc main_v3) by host_keeps).trans (at8_v3 m ρ c)
theorem at9_v10 : W9 m ρ c (Proc.devRef .tc main_v10) = Cert.ReferenceIdeal.Read.val_main_v10 (F := Ideal) (m ((c : Thread nD τ).loc main_arg1)) :=
  (show W9 m ρ c (Proc.devRef .tc main_v10) = W8 m ρ c (Proc.devRef .tc main_v10) by host_keeps).trans (at8_v10 m ρ c)
theorem at9_v77 : W9 m ρ c (Proc.devRef .tc main_v77) = Cert.ReferenceIdeal.Read.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (show W9 m ρ c (Proc.devRef .tc main_v77) = W8 m ρ c (Proc.devRef .tc main_v77) by host_keeps).trans (at8_v77 m ρ c)

/-- Layer 3's message passing on the host: the same gathers, products and scatter-add as the reference's, applied to
    the same features, sources, targets and inverse root degrees. -/
theorem at9_v105 : W9 m ρ c (Proc.devRef .tc main_v105) = Cert.ReferenceIdeal.Read.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W8 m ρ c) (Proc.devRef .tc main_v105) = _
  dsimp only [hostOps5]
  after_results_simp
  rw [at8_v77 m ρ c, at8_v1 m ρ c, at8_v3 m ρ c, at8_v10 m ρ c]
  try rfl

/-- The self-loop weights: the squared inverse root degrees as a column. -/
theorem at9_v107 : W9 m ρ c (Proc.devRef .tc main_v107) = Cert.ReferenceIdeal.Read.val_main_v117 (F := Ideal) (m ((c : Thread nD τ).loc main_arg1)) := by
  show StableHlo.after hostOps5 (W8 m ρ c) (Proc.devRef .tc main_v107) = _
  dsimp only [hostOps5]
  after_results_simp
  rw [at8_v10 m ρ c]
  try rfl

/-- The bias reshaped to one row. -/
theorem at9_v108 : W9 m ρ c (Proc.devRef .tc main_v108) = shapeCast S1x128 (m ((c : Thread nD τ).loc main_arg8)) shapeCasts_S128_S1x128 := by
  show StableHlo.after hostOps5 (W8 m ρ c) (Proc.devRef .tc main_v108) = _
  dsimp only [hostOps5]
  after_results_simp
  rw [at8_arg8 m ρ c]
  try rfl

/-! ## Boundary 10 -/

theorem at10_arg9 : W10 m ρ c (Proc.devRef .tc main_arg9) = (m ((c : Thread nD τ).loc main_arg9)) :=
  (W10_of_ne m ρ c main_arg9 (by decide)).trans (at9_arg9 m ρ c)
theorem at10_arg10 : W10 m ρ c (Proc.devRef .tc main_arg10) = (m ((c : Thread nD τ).loc main_arg10)) :=
  (W10_of_ne m ρ c main_arg10 (by decide)).trans (at9_arg10 m ρ c)
theorem at10_arg2 : W10 m ρ c (Proc.devRef .tc main_arg2) = (m ((c : Thread nD τ).loc main_arg2)) :=
  (W10_of_ne m ρ c main_arg2 (by decide)).trans (at9_arg2 m ρ c)
theorem at10_v1 : W10 m ρ c (Proc.devRef .tc main_v1) = Cert.ReferenceIdeal.Read.val_main_v1 (F := Ideal) (m ((c : Thread nD τ).loc main_arg1)) :=
  (W10_of_ne m ρ c main_v1 (by decide)).trans (at9_v1 m ρ c)
theorem at10_v3 : W10 m ρ c (Proc.devRef .tc main_v3) = Cert.ReferenceIdeal.Read.val_main_v3 (F := Ideal) (m ((c : Thread nD τ).loc main_arg1)) :=
  (W10_of_ne m ρ c main_v3 (by decide)).trans (at9_v3 m ρ c)
theorem at10_v10 : W10 m ρ c (Proc.devRef .tc main_v10) = Cert.ReferenceIdeal.Read.val_main_v10 (F := Ideal) (m ((c : Thread nD τ).loc main_arg1)) :=
  (W10_of_ne m ρ c main_v10 (by decide)).trans (at9_v10 m ρ c)

/-- Layer 3's output: the launch leaves the combine of its four arrays, which is the reference's spelt-out stage. -/
theorem at10_v109 : W10 m ρ c (Proc.devRef .tc main_v109) = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W10_arr m ρ c 4).trans ((Combine5.final (V9 m ρ) c).trans
    ((Cert.Layer.combineRelu_args (N := 50000) (C := 128) (at9_v105 m ρ c) (at9_v77 m ρ c) (at9_v107 m ρ c) (at9_v108 m ρ c)).trans
      (Cert.ReferenceIdeal.Stages.out3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) shapeCasts_S128_S1x128).symm))

end Cert.KernelIdeal.Chain

end
-- ==== Proof.Product6.lean ====
/-
  Launch 6: a matrix product computed ten row blocks at a time.

  The launch has ten grid points. Point `t` reads rows `5000 t … 5000 t + 4999` of the left array (a block of
  5000 rows, all 128 columns) and the whole right array, multiplies the two blocks into a zero accumulator
  (the change of float format in front of the product is the identity on the extended reals) and writes the
  5000 × 64 result back as rows `5000 t …` of the output. A row of a product depends on that row of the left
  operand only, so block `t` of the whole product IS the product of block `t`; the ten blocks tile the output,
  hence after the launch the output array holds the whole product, entry `(a, b) = ∑ k, l[a,k] · r[k,b]`,
  whatever the two input arrays held when the launch was entered.
-/
import proofs.«106310_j51728586113457_1_alg».proof.Proof.Gen.KernelIdeal.Frame
import proofs.«106310_j51728586113457_1_alg».proof.Proof.LibPlainDot
import Idealize.ShloMosaic.Lib.Pipeline.Value
import Idealize.ShloMosaic.Lib.ValueIdx

set_option maxRecDepth 16384

noncomputable section

namespace Cert.KernelIdeal.Product6

open Cert.KernelIdeal Cert.KernelIdeal.Gen
open Idealize.ShloMosaic Idealize.ShloMosaic.TcCoe Idealize.SL.Sem Idealize.ShloMosaic.ValueIdx
open Cert.Lib.PlainDot

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's block row is the point's number, every
    other block coordinate is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's one stored value is the product of its two loaded blocks. -/
theorem pay_eq (x0 : Vec Ideal S5000x128 .f32) (x1 : Vec Ideal S128x64 .f32) :
    k6_pay1 (F := Ideal) x0 x1 = rowsByCols (M := 5000) (K := 128) (N := 64) x0 x1 := by
  unfold k6_pay1
  simp only [shapeCast_self]
  exact matmul_zero_eq (M := 5000) (K := 128) (N := 64) dot_S5000x128_S128x64_S5000x64_1_0_0_1_n_n rfl none _ _

/-- The left window's block at point `t` is rows `5000 t …` of its array. -/
theorem left_block (c : Dev nD) (t : Fin cfg6.N) (x : S5000x128.Idx) (k : S50000x128.Idx)
    (hk0 : (k 0).val = 5000 * t.val + (x 0).val) (hk1 : (k 1).val = (x 1).val) :
    (iblk6 V c 0 t : S5000x128.Idx → EReal) x = (V c (Pipeline.arrRef spec6 0) : S50000x128.Idx → EReal) k := by
  obtain ⟨e0, e1, -⟩ := idx_facts t
  unfold iblk6
  rw [View.read_apply]
  refine congrArg (V c (Pipeline.arrRef spec6 0) : S50000x128.Idx → EReal) ?_
  funext a
  apply Fin.ext
  match a with
  | ⟨0, _⟩ => show win6_0.index t 0 * 5000 + 1 * (x 0).val = (k 0).val; rw [e0, hk0]; omega
  | ⟨1, _⟩ => show win6_0.index t 1 * 128 + 1 * (x 1).val = (k 1).val; rw [e1, hk1]; omega

/-- The right window's block at every point is its whole array. -/
theorem right_block (c : Dev nD) (t : Fin cfg6.N) (x : S128x64.Idx) :
    (iblk6 V c 1 t : S128x64.Idx → EReal) x = (V c (Pipeline.arrRef spec6 1) : S128x64.Idx → EReal) x := by
  obtain ⟨-, -, e2, e3, -⟩ := idx_facts t
  unfold iblk6
  rw [View.read_apply]
  refine congrArg (V c (Pipeline.arrRef spec6 1) : S128x64.Idx → EReal) ?_
  funext a
  apply Fin.ext
  match a with
  | ⟨0, _⟩ => show win6_1.index t 0 * 128 + 1 * (x 0).val = (x 0).val; rw [e2]; omega
  | ⟨1, _⟩ => show win6_1.index t 1 * 64 + 1 * (x 1).val = (x 1).val; rw [e3]; omega

set_option maxHeartbeats 1600000 in
/-- What point `t` writes back is block `t` of the whole product of the two arrays as the launch finds them. -/
theorem flushed_eq (c : Dev nD) (t : Fin cfg6.N) :
    (dat6 V c).flushed 2 t = ((cfg6.win 2).blk t).view.read (Elt Ideal)
      (rowsByCols (M := 50000) (K := 128) (N := 64) (V c (Pipeline.arrRef spec6 0)) (V c (Pipeline.arrRef spec6 1))) := by
  show (cfg6.win 2).cut (grid6.coords t) ((dat6 V c).after 2 t) = _
  rw [after6_2]
  unfold out6_2
  rw [View.canon_unit_zero hz]
  simp only [View.ld_unit_zero (S := S5000x128) hz, View.ld_unit_zero (S := S128x64) hz]
  rw [pay_eq]
  obtain ⟨-, -, -, -, e4, e5⟩ := idx_facts t
  refine funext fun (j : S5000x64.Idx) => ?_
  show rowsByCols (M := 5000) (K := 128) (N := 64) (iblk6 V c 0 t) (iblk6 V c 1 t) j
      = rowsByCols (M := 50000) (K := 128) (N := 64) (V c (Pipeline.arrRef spec6 0)) (V c (Pipeline.arrRef spec6 1))
        (((cfg6.win 2).blk t).view.emb j)
  refine rowsByCols_congr (M := 50000) (M' := 5000) (K := 128) (N := 64) (N' := 64) _ _ _ _ j _ (fun k => ?_) (fun k => ?_)
  · refine left_block V c t _ _ ?_ rfl
    show (((cfg6.win 2).blk t).view.emb j 0).val = 5000 * t.val + (j 0).val
    show win6_2.index t 0 * 5000 + 1 * (j 0).val = 5000 * t.val + (j 0).val
    rw [e4]; omega
  · refine (right_block V c t _).trans (congrArg (V c (Pipeline.arrRef spec6 1) : S128x64.Idx → EReal) ?_)
    funext a
    apply Fin.ext
    match a with
    | ⟨0, _⟩ => rfl
    | ⟨1, _⟩ => show (j 1).val = win6_2.index t 1 * 64 + 1 * (j 1).val; rw [e5]; omega

/-- Every entry of the output lies in the block of the point numbered by its row divided by 5000. -/
theorem cover (i : S50000x64.Idx) :
    ∃ t : Fin cfg6.N, (cfg6.win 2).flush t = true ∧ i ∈ ((cfg6.win 2).blk t).view.set := by
  have hi0 : (i 0).val < 50000 := (i 0).isLt
  have hi1 : (i 1).val < 64 := (i 1).isLt
  have hlt : (i 0).val / 5000 < grid6.N := by rw [N_6]; omega
  obtain ⟨-, -, -, -, e4, e5⟩ := idx_facts ⟨(i 0).val / 5000, hlt⟩
  refine ⟨⟨(i 0).val / 5000, hlt⟩, flush6_2 _, ?_⟩
  show i ∈ ((View.whole main_v110).slice (win6_2.rect ⟨(i 0).val / 5000, hlt⟩)).set
  rw [View.set_slice_whole, Rect.mem_set_unit]
  intro a
  match a with
  | ⟨0, _⟩ =>
    show win6_2.index ⟨(i 0).val / 5000, hlt⟩ 0 * 5000 ≤ (i 0).val ∧ (i 0).val < win6_2.index ⟨(i 0).val / 5000, hlt⟩ 0 * 5000 + 5000
    rw [e4]; show (i 0).val / 5000 * 5000 ≤ (i 0).val ∧ (i 0).val < (i 0).val / 5000 * 5000 + 5000; omega
  | ⟨1, _⟩ =>
    show win6_2.index ⟨(i 0).val / 5000, hlt⟩ 1 * 64 ≤ (i 1).val ∧ (i 1).val < win6_2.index ⟨(i 0).val / 5000, hlt⟩ 1 * 64 + 64
    rw [e5]; omega

/-- After the launch the output array holds the whole product of the two arrays as the launch found them. -/
theorem final (c : Dev nD) : (dat6 V c).arrAt 2 cfg6.N
    = rowsByCols (M := 50000) (K := 128) (N := 64) (V c (Pipeline.arrRef spec6 0)) (V c (Pipeline.arrRef spec6 1)) :=
  (dat6 V c).arrAt_eq_of_cover 2 _ (fun t _ => flushed_eq V c t) (cover)

end Cert.KernelIdeal.Product6

end
-- ==== Proof.Combine7.lean ====
/-
  Launch 7: a layer's last step, ten row blocks at a time.

  The launch has ten grid points. Point `t` reads rows `5000 t … 5000 t + 4999` of the summed messages `agg`, of the
  projected features `h` and of the column `s` of self-loop weights, and the whole bias row `b`; it stores
  `(agg + h · s) + b`, the column spread along the rows' entries and the bias row spread over the rows,
  and writes the block back as the same rows of the output. Entry `(p, q)` of the output depends on entry `(p, q)` of
  `agg` and `h`, on `s[p, 0]` and on `b[0, q]` only, so each block of the output is a block of ONE whole-array
  function of the four arrays; the ten blocks tile the output.
-/
import proofs.«106310_j51728586113457_1_alg».proof.Proof.Gen.KernelIdeal.Frame
import proofs.«106310_j51728586113457_1_alg».proof.Proof.Layer
import Idealize.ShloMosaic.Lib.Pipeline.Value
import Idealize.ShloMosaic.Lib.ValueIdx

set_option maxRecDepth 16384

noncomputable section

namespace Cert.KernelIdeal.Combine7

open Cert.KernelIdeal Cert.KernelIdeal.Gen
open Idealize.ShloMosaic Idealize.ShloMosaic.TcCoe Idealize.SL.Sem Idealize.ShloMosaic.ValueIdx
open Cert.Layer

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block row `t`, the bias
    row at block (0, 0). -/
theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- The body's stored value at an entry: the layer's combine of its four loaded blocks. -/
theorem pay_apply (x0 x1 : Vec Ideal S5000x64 .f32) (x2 : Vec Ideal S5000x1 .f32) (x3 : Vec Ideal S1x64 .f32) (j : S5000x64.Idx) :
    k7_pay1 (F := Ideal) x0 x1 x2 x3 j = combine (N := 5000) (C := 64) x0 x1 x2 x3 j := by
  unfold k7_pay1
  simp only [shapeCast_self]
  have hs : broadcastTo S5000x64 (x2 : S5000x1.Idx → EReal) broadcasts_S5000x1_S5000x64 j = x2 (ix2 (j 0) (0 : Fin 1)) :=
    broadcastTo_apply (x2 : S5000x1.Idx → EReal) broadcasts_S5000x1_S5000x64 j (ix2 (n0 := 5000) (n1 := 1) (j 0) (0 : Fin 1)) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl])
  have hb : broadcastTo S5000x64 (x3 : S1x64.Idx → EReal) broadcasts_S1x64_S5000x64 j = x3 (ix2 (0 : Fin 1) (j 1)) :=
    broadcastTo_apply (x3 : S1x64.Idx → EReal) broadcasts_S1x64_S5000x64 j (ix2 (n0 := 1) (n1 := 64) (0 : Fin 1) (j 1)) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])
  show FloatOps.addf (F := Ideal) (φ := .f32) (FloatOps.addf (F := Ideal) (φ := .f32) (x0 j) (FloatOps.mulf (F := Ideal) (φ := .f32) (x1 j) (broadcastTo S5000x64 (x2 : S5000x1.Idx → EReal) broadcasts_S5000x1_S5000x64 j)))
      (broadcastTo S5000x64 (x3 : S1x64.Idx → EReal) broadcasts_S1x64_S5000x64 j) = _
  rw [hs, hb]
  rfl

/-- A row-blocked window's block at point `t` is rows `5000 t …` of its array (windows 0 and 1, of width 64). -/
theorem rows_block0 (c : Dev nD) (t : Fin cfg7.N) (x : S5000x64.Idx) (k : S50000x64.Idx)
    (hk0 : (k 0).val = 5000 * t.val + (x 0).val) (hk1 : (k 1).val = (x 1).val) :
    (iblk7 V c 0 t : S5000x64.Idx → EReal) x = (V c (Pipeline.arrRef spec7 0) : S50000x64.Idx → EReal) k := by
  obtain ⟨e0, e1, -⟩ := idx_facts t
  unfold iblk7
  rw [View.read_apply]
  refine congrArg (V c (Pipeline.arrRef spec7 0) : S50000x64.Idx → EReal) ?_
  funext a
  apply Fin.ext
  match a with
  | ⟨0, _⟩ => show win7_0.index t 0 * 5000 + 1 * (x 0).val = (k 0).val; rw [e0, hk0]; omega
  | ⟨1, _⟩ => show win7_0.index t 1 * 64 + 1 * (x 1).val = (k 1).val; rw [e1, hk1]; omega

theorem rows_block1 (c : Dev nD) (t : Fin cfg7.N) (x : S5000x64.Idx) (k : S50000x64.Idx)
    (hk0 : (k 0).val = 5000 * t.val + (x 0).val) (hk1 : (k 1).val = (x 1).val) :
    (iblk7 V c 1 t : S5000x64.Idx → EReal) x = (V c (Pipeline.arrRef spec7 1) : S50000x64.Idx → EReal) k := by
  obtain ⟨-, -, e0, e1, -⟩ := idx_facts t
  unfold iblk7
  rw [View.read_apply]
  refine congrArg (V c (Pipeline.arrRef spec7 1) : S50000x64.Idx → EReal) ?_
  funext a
  apply Fin.ext
  match a with
  | ⟨0, _⟩ => show win7_1.index t 0 * 5000 + 1 * (x 0).val = (k 0).val; rw [e0, hk0]; omega
  | ⟨1, _⟩ => show win7_1.index t 1 * 64 + 1 * (x 1).val = (k 1).val; rw [e1, hk1]; omega

/-- The weight column's block at point `t` is rows `5000 t …` of the column. -/
theorem column_block (c : Dev nD) (t : Fin cfg7.N) (x : S5000x1.Idx) (k : S50000x1.Idx)
    (hk0 : (k 0).val = 5000 * t.val + (x 0).val) (hk1 : (k 1).val = (x 1).val) :
    (iblk7 V c 2 t : S5000x1.Idx → EReal) x = (V c (Pipeline.arrRef spec7 2) : S50000x1.Idx → EReal) k := by
  obtain ⟨-, -, -, -, e0, e1, -⟩ := idx_facts t
  unfold iblk7
  rw [View.read_apply]
  refine congrArg (V c (Pipeline.arrRef spec7 2) : S50000x1.Idx → EReal) ?_
  funext a
  apply Fin.ext
  match a with
  | ⟨0, _⟩ => show win7_2.index t 0 * 5000 + 1 * (x 0).val = (k 0).val; rw [e0, hk0]; omega
  | ⟨1, _⟩ => show win7_2.index t 1 * 1 + 1 * (x 1).val = (k 1).val; rw [e1, hk1]; omega

/-- The bias row's block at every point is the whole row. -/
theorem bias_block (c : Dev nD) (t : Fin cfg7.N) (x : S1x64.Idx) :
    (iblk7 V c 3 t : S1x64.Idx → EReal) x = (V c (Pipeline.arrRef spec7 3) : S1x64.Idx → EReal) x := by
  obtain ⟨-, -, -, -, -, -, e0, e1, -⟩ := idx_facts t
  unfold iblk7
  rw [View.read_apply]
  refine congrArg (V c (Pipeline.arrRef spec7 3) : S1x64.Idx → EReal) ?_
  funext a
  apply Fin.ext
  match a with
  | ⟨0, _⟩ => show win7_3.index t 0 * 1 + 1 * (x 0).val = (x 0).val; rw [e0]; omega
  | ⟨1, _⟩ => show win7_3.index t 1 * 64 + 1 * (x 1).val = (x 1).val; rw [e1]; omega

set_option maxHeartbeats 1600000 in
/-- What point `t` writes back is block `t` of the combine of the four arrays as the launch finds them. -/
theorem flushed_eq (c : Dev nD) (t : Fin cfg7.N) :
    (dat7 V c).flushed 4 t = ((cfg7.win 4).blk t).view.read (Elt Ideal)
      (combine (N := 50000) (C := 64) (V c (Pipeline.arrRef spec7 0)) (V c (Pipeline.arrRef spec7 1))
        (V c (Pipeline.arrRef spec7 2)) (V c (Pipeline.arrRef spec7 3))) := by
  show (cfg7.win 4).cut (grid7.coords t) ((dat7 V c).after 4 t) = _
  rw [after7_4]
  unfold out7_4
  rw [View.canon_unit_zero hz]
  simp only [View.ld_unit_zero (S := S5000x64) hz, View.ld_unit_zero (S := S5000x1) hz, View.ld_unit_zero (S := S1x64) hz]
  obtain ⟨-, -, -, -, -, -, -, -, e8, e9⟩ := idx_facts t
  refine funext fun (j : S5000x64.Idx) => ?_
  show k7_pay1 (F := Ideal) (iblk7 V c 0 t) (iblk7 V c 1 t) (iblk7 V c 2 t) (iblk7 V c 3 t) j
      = combine (N := 50000) (C := 64) (V c (Pipeline.arrRef spec7 0)) (V c (Pipeline.arrRef spec7 1))
        (V c (Pipeline.arrRef spec7 2)) (V c (Pipeline.arrRef spec7 3)) (((cfg7.win 4).blk t).view.emb j)
  refine (pay_apply (iblk7 V c 0 t) (iblk7 V c 1 t) (iblk7 V c 2 t) (iblk7 V c 3 t) j).trans ?_
  have r0 : (((cfg7.win 4).blk t).view.emb j 0).val = 5000 * t.val + (j 0).val := by
    show win7_4.index t 0 * 5000 + 1 * (j 0).val = 5000 * t.val + (j 0).val
    rw [e8]; omega
  have r1 : (((cfg7.win 4).blk t).view.emb j 1).val = (j 1).val := by
    show win7_4.index t 1 * 64 + 1 * (j 1).val = (j 1).val
    rw [e9]; omega
  refine combine_congr (N := 50000) (N' := 5000) (C := 64) (C' := 64) _ _ _ _ _ _ _ _ _ j ?_ ?_ ?_ ?_
  · exact rows_block0 V c t j _ r0 r1
  · exact rows_block1 V c t j _ r0 r1
  · exact column_block V c t _ _ r0 rfl
  · refine (bias_block V c t (ix2 (n0 := 1) (n1 := 64) (0 : Fin 1) (j 1))).trans (congrArg (V c (Pipeline.arrRef spec7 3) : S1x64.Idx → EReal) ?_)
    funext a
    apply Fin.ext
    match a with
    | ⟨0, _⟩ => rfl
    | ⟨1, _⟩ => exact r1.symm

/-- Every entry of the output lies in the block of the point numbered by its row divided by 5000. -/
theorem cover (i : S50000x64.Idx) :
    ∃ t : Fin cfg7.N, (cfg7.win 4).flush t = true ∧ i ∈ ((cfg7.win 4).blk t).view.set := by
  have hi0 : (i 0).val < 50000 := (i 0).isLt
  have hi1 : (i 1).val < 64 := (i 1).isLt
  have hlt : (i 0).val / 5000 < grid7.N := by rw [N_7]; omega
  obtain ⟨-, -, -, -, -, -, -, -, e8, e9⟩ := idx_facts ⟨(i 0).val / 5000, hlt⟩
  refine ⟨⟨(i 0).val / 5000, hlt⟩, flush7_4 _, ?_⟩
  show i ∈ ((View.whole main_v142).slice (win7_4.rect ⟨(i 0).val / 5000, hlt⟩)).set
  rw [View.set_slice_whole, Rect.mem_set_unit]
  intro a
  match a with
  | ⟨0, _⟩ =>
    show win7_4.index ⟨(i 0).val / 5000, hlt⟩ 0 * 5000 ≤ (i 0).val ∧ (i 0).val < win7_4.index ⟨(i 0).val / 5000, hlt⟩ 0 * 5000 + 5000
    rw [e8]; show (i 0).val / 5000 * 5000 ≤ (i 0).val ∧ (i 0).val < (i 0).val / 5000 * 5000 + 5000; omega
  | ⟨1, _⟩ =>
    show win7_4.index ⟨(i 0).val / 5000, hlt⟩ 1 * 64 ≤ (i 1).val ∧ (i 1).val < win7_4.index ⟨(i 0).val / 5000, hlt⟩ 1 * 64 + 64
    rw [e9]; omega

/-- After the launch the output array holds the combine of the four arrays as the launch found them. -/
theorem final (c : Dev nD) : (dat7 V c).arrAt 4 cfg7.N
    = combine (N := 50000) (C := 64) (V c (Pipeline.arrRef spec7 0)) (V c (Pipeline.arrRef spec7 1))
        (V c (Pipeline.arrRef spec7 2)) (V c (Pipeline.arrRef spec7 3)) :=
  (dat7 V c).arrAt_eq_of_cover 4 _ (fun t _ => flushed_eq V c t) (cover)

end Cert.KernelIdeal.Combine7

end
-- ==== Proof.Chain4.lean ====
/-
  The kernel's buffers followed through layer 4.

  The program's state between segments is the generated fold `W0 … W14`. For every buffer a later segment reads, the
  value it holds at the boundary is stated as a stage of the reference applied to the launch contents of the argument
  arrays: a buffer no segment writes is carried unchanged, a host stretch applies the same operations as the
  reference to buffers already identified, a product launch leaves the whole product, a combine launch the combine.
-/
import proofs.«106310_j51728586113457_1_alg».proof.Proof.Chain3
import proofs.«106310_j51728586113457_1_alg».proof.Proof.Product6
import proofs.«106310_j51728586113457_1_alg».proof.Proof.Combine7
import Idealize.ShloMosaic.Lib.StableHlo.Run
import Idealize.ShloMosaic.Lib.Pipeline.Value

set_option maxRecDepth 16384
-- a host stretch of forty operations is read back in one pass
set_option maxHeartbeats 4000000

noncomputable section

namespace Cert.KernelIdeal.Chain

open Cert.KernelIdeal Cert.KernelIdeal.Gen
open Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 11 -/

theorem at11_arg10 : W11 m ρ c (Proc.devRef .tc main_arg10) = (m ((c : Thread nD τ).loc main_arg10)) :=
  (W11_of_ne m ρ c main_arg10 (by decide)).trans (at10_arg10 m ρ c)
theorem at11_arg2 : W11 m ρ c (Proc.devRef .tc main_arg2) = (m ((c : Thread nD τ).loc main_arg2)) :=
  (W11_of_ne m ρ c main_arg2 (by decide)).trans (at10_arg2 m ρ c)
theorem at11_v1 : W11 m ρ c (Proc.devRef .tc main_v1) = Cert.ReferenceIdeal.Read.val_main_v1 (F := Ideal) (m ((c : Thread nD τ).loc main_arg1)) :=
  (W11_of_ne m ρ c main_v1 (by decide)).trans (at10_v1 m ρ c)
theorem at11_v3 : W11 m ρ c (Proc.devRef .tc main_v3) = Cert.ReferenceIdeal.Read.val_main_v3 (F := Ideal) (m ((c : Thread nD τ).loc main_arg1)) :=
  (W11_of_ne m ρ c main_v3 (by decide)).trans (at10_v3 m ρ c)
theorem at11_v10 : W11 m ρ c (Proc.devRef .tc main_v10) = Cert.ReferenceIdeal.Read.val_main_v10 (F := Ideal) (m ((c : Thread nD τ).loc main_arg1)) :=
  (W11_of_ne m ρ c main_v10 (by decide)).trans (at10_v10 m ρ c)

/-- Layer 4's features: the launch leaves the whole product, which is the reference's `dot_general` stage. -/
theorem at11_v110 : W11 m ρ c (Proc.devRef .tc main_v110) = Cert.ReferenceIdeal.Read.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W11_arr m ρ c 2).trans ((Product6.final (V10 m ρ) c).trans
    ((congrArg₂ (Cert.Lib.PlainDot.rowsByCols (M := 50000) (K := 128) (N := 64)) (at10_v109 m ρ c) (at10_arg9 m ρ c)).trans
      (Cert.ReferenceIdeal.Stages.features4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm))

/-! ## Boundary 12 -/

theorem at12_arg2 : W12 m ρ c (Proc.devRef .tc main_arg2) = (m ((c : Thread nD τ).loc main_arg2)) :=
  (show W12 m ρ c (Proc.devRef .tc main_arg2) = W11 m ρ c (Proc.devRef .tc main_arg2) by host_keeps).trans (at11_arg2 m ρ c)
theorem at12_v110 : W12 m ρ c (Proc.devRef .tc main_v110) = Cert.ReferenceIdeal.Read.val_main_v125 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (show W12 m ρ c (Proc.devRef .tc main_v110) = W11 m ρ c (Proc.devRef .tc main_v110) by host_keeps).trans (at11_v110 m ρ c)

/-- Layer 4's message passing on the host: the same gathers, products and scatter-add as the reference's, applied to
    the same features, sources, targets and inverse root degrees. -/
theorem at12_v138 : W12 m ρ c (Proc.devRef .tc main_v138) = Cert.ReferenceIdeal.Read.val_main_v153 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps7 (W11 m ρ c) (Proc.devRef .tc main_v138) = _
  dsimp only [hostOps7]
  after_results_simp
  rw [at11_v110 m ρ c, at11_v1 m ρ c, at11_v3 m ρ c, at11_v10 m ρ c]
  try rfl

/-- The self-loop weights: the squared inverse root degrees as a column. -/
theorem at12_v140 : W12 m ρ c (Proc.devRef .tc main_v140) = Cert.ReferenceIdeal.Read.val_main_v155 (F := Ideal) (m ((c : Thread nD τ).loc main_arg1)) := by
  show StableHlo.after hostOps7 (W11 m ρ c) (Proc.devRef .tc main_v140) = _
  dsimp only [hostOps7]
  after_results_simp
  rw [at11_v10 m ρ c]
  try rfl

/-- The bias reshaped to one row. -/
theorem at12_v141 : W12 m ρ c (Proc.devRef .tc main_v141) = shapeCast S1x64 (m ((c : Thread nD τ).loc main_arg10)) shapeCasts_S64_S1x64 := by
  show StableHlo.after hostOps7 (W11 m ρ c) (Proc.devRef .tc main_v141) = _
  dsimp only [hostOps7]
  after_results_simp
  rw [at11_arg10 m ρ c]
  try rfl

/-! ## Boundary 13 -/

theorem at13_arg2 : W13 m ρ c (Proc.devRef .tc main_arg2) = (m ((c : Thread nD τ).loc main_arg2)) :=
  (W13_of_ne m ρ c main_arg2 (by decide)).trans (at12_arg2 m ρ c)

/-- Layer 4's output: the launch leaves the combine of its four arrays, which is the reference's spelt-out stage. -/
theorem at13_v142 : W13 m ρ c (Proc.devRef .tc main_v142) = Cert.ReferenceIdeal.Read.val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W13_arr m ρ c 4).trans ((Combine7.final (V12 m ρ) c).trans
    ((Cert.Layer.combine_args (N := 50000) (C := 64) (at12_v138 m ρ c) (at12_v110 m ρ c) (at12_v140 m ρ c) (at12_v141 m ρ c)).trans
      (Cert.ReferenceIdeal.Stages.out4 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) shapeCasts_S64_S1x64).symm))

end Cert.KernelIdeal.Chain

end
-- ==== Proof.Chain5.lean ====
/-
  The kernel's result: the mean pool over graphs applied to the last layer's output.
-/
import proofs.«106310_j51728586113457_1_alg».proof.Proof.Chain4
import Idealize.ShloMosaic.Lib.StableHlo.Run
import Idealize.ShloMosaic.Lib.Pipeline.Value

set_option maxRecDepth 16384
-- a host stretch of forty operations is read back in one pass
set_option maxHeartbeats 4000000

noncomputable section

namespace Cert.KernelIdeal.Chain

open Cert.KernelIdeal Cert.KernelIdeal.Gen
open Cert.KernelIdeal.Chain
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 14 -/

/-- The mean pool on the host: per-graph sums of the last layer's rows divided by the per-graph counts (at least one),
    the same operations as the reference's, applied to the same rows and graph ids. -/
theorem at14_v154 : W14 m ρ c (Proc.devRef .tc main_v154) = Cert.ReferenceIdeal.Read.val_main_v173 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps8 (W13 m ρ c) (Proc.devRef .tc main_v154) = _
  dsimp only [hostOps8]
  after_results_simp
  rw [at13_v142 m ρ c, at13_arg2 m ρ c]
  try rfl

end Cert.KernelIdeal.Chain

end
-- ==== Proof.lean ====
/-
  Four stacked graph-convolution layers and a mean pool over graphs, computed two ways.

  Both programs compute, for node features `x`, an edge list (sources, targets), a graph id per node, four weight
  matrices and four bias vectors: the in-degrees plus one and their inverse square roots `d`; then four times
      h = x · W,   agg[i] = Σ over edges j→i of d[j] d[i] h[j],   x' = (agg + h · d²) + b   (rectified in the first three layers);
  and last the per-graph mean of the rows. The reference does everything with host operations. The kernel does the
  products `x · W` and the last step `(agg + h · d²) + b` in launches that work on ten blocks of 5000 rows, and the
  degrees, the gathers and scatter-adds of the message passing and the pool with the same host operations as the
  reference.

  On the extended reals the two are the same function, operation for operation: a change of float format is the
  identity, a block-by-block product is the whole product (a row of a product depends on that row of the left operand
  only), and the blockwise last step is the whole-array one (it is entrywise, with the weight column spread along a
  row and the bias row spread over the rows, exactly as the host's broadcasts spread them). No algebraic law is used
  that could fail at an infinity — the sums are taken in the same order on both sides — so the finiteness of the
  inputs is never opened. The idealization rewrote nothing, so `preserves` is trivial.

  The modules: `KernelRun` (the kernel's run with its result buffer named), `Product0/2/4/6` and `Combine1/3/5/7`
  (what each launch leaves in its output array), `Layer`, `RefLayer`, `RefStages` (the combine and the
  reference's stages read as products and combines), `Chain1 … Chain5` (the kernel's buffers followed through the
  fourteen segments, each identified with a stage of the reference).
-/
import proofs.«106310_j51728586113457_1_alg».proof.Defs
import proofs.«106310_j51728586113457_1_alg».proof.Proof.Gen.Kernel
import proofs.«106310_j51728586113457_1_alg».proof.Proof.Gen.Kernel.Skeleton
import proofs.«106310_j51728586113457_1_alg».proof.Proof.Gen.Kernel.Launch
import proofs.«106310_j51728586113457_1_alg».proof.Proof.Gen.Kernel.Points
import proofs.«106310_j51728586113457_1_alg».proof.Proof.Gen.Kernel.Frame
import proofs.«106310_j51728586113457_1_alg».proof.Proof.Gen.KernelIdeal
import proofs.«106310_j51728586113457_1_alg».proof.Proof.Gen.KernelIdeal.Skeleton
import proofs.«106310_j51728586113457_1_alg».proof.Proof.Gen.KernelIdeal.Launch
import proofs.«106310_j51728586113457_1_alg».proof.Proof.Gen.KernelIdeal.Points
import proofs.«106310_j51728586113457_1_alg».proof.Proof.Gen.KernelIdeal.Frame
import proofs.«106310_j51728586113457_1_alg».proof.Proof.Gen.ReferenceIdeal
import proofs.«106310_j51728586113457_1_alg».proof.Proof.Gen.Pre_finite_inputs
import proofs.«106310_j51728586113457_1_alg».proof.Proof.Gen.ReferenceIdeal.Run
import proofs.«106310_j51728586113457_1_alg».proof.Proof.Gen.ReferenceIdeal.Read
import proofs.«106310_j51728586113457_1_alg».proof.Proof.KernelRun
import proofs.«106310_j51728586113457_1_alg».proof.Proof.Chain5
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pooled features of the reference's last stage at the kernel's launch arguments: the
    kernel because its last buffer was followed there through the segments, the reference by its own run, its
    arguments being the kernel's. -/
theorem algebraic : Cert.algebraic_KernelIdeal_ReferenceIdeal := by
  intro m ρ m' ρ' _ hagree
  refine ⟨fun c => Cert.ReferenceIdeal.Read.val_main_v173 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.at14_v154 m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.Read.val_main_v173_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
